-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x2048 : Shape := ⟨3, ![32, 256, 2048]⟩
abbrev S32x256x256 : Shape := ⟨3, ![32, 256, 256]⟩
abbrev S_ : Shape := ⟨0, ![]⟩

class Facts : Prop where
  bcast_S_S32x256x2048 : S_.BroadcastsInDim S32x256x2048 (![] : Fin 0 → Fin S32x256x2048.rank)
  reducesTo_S32x256x2048_S_d0_1_2 : S32x256x2048.ReducesTo [0, 1, 2] S_
  h_S_ : 0 < S_.numel
  bcast_S_S32x256x256 : S_.BroadcastsInDim S32x256x256 (![] : Fin 0 → Fin S32x256x256.rank)
  reducesTo_S32x256x256_S_d0_1_2 : S32x256x256.ReducesTo [0, 1, 2] S_

variable [Facts]

def fn_part1 {F : FTy → Type} [FloatOps F] (main_arg4 : FVec F S32x256x256 .f32) (main_v13 : IVec S_ 1) (main_v16 : IVec S32x256x2048 1) : IVec S_ 1 :=
  let main_c_5 : IVec S_ 1 := constantI S_ 1 1#1
  let main_v17 : IVec S_ 1 := (fun x v => Host.reduce IntOp.andi x v reducesTo_S32x256x2048_S_d0_1_2 h_S_) main_v16 main_c_5
  let main_v18 : IVec S_ 1 := andi main_v13 main_v17
  let main_v19 : FVec F S32x256x256 .f32 := Host.absf main_arg4
  let main_cst_6 : FVec F S_ .f32 := constant S_ .f32 0x7F800000#32
  let main_v20 : FVec F S32x256x256 .f32 := broadcastInDim S32x256x256 ![] bcast_S_S32x256x256 main_cst_6
  let main_v21 : IVec S32x256x256 1 := cmpf .olt main_v19 main_v20
  let main_c_7 : IVec S_ 1 := constantI S_ 1 1#1
  let main_v22 : IVec S_ 1 := (fun x v => Host.reduce IntOp.andi x v reducesTo_S32x256x256_S_d0_1_2 h_S_) main_v21 main_c_7
  let main_v23 : IVec S_ 1 := andi main_v18 main_v22
  main_v23

def fn {F : FTy → Type} [FloatOps F] (main_arg0 : FVec F S32x256x2048 .f32) (main_arg1 : FVec F S32x256x2048 .f32) (main_arg2 : FVec F S32x256x2048 .f32) (main_arg3 : FVec F S32x256x2048 .f32) (main_arg4 : FVec F S32x256x256 .f32) : IVec S_ 1 :=
  let main_v0 : FVec F S32x256x2048 .f32 := Host.absf main_arg0
  let main_cst : FVec F S_ .f32 := constant S_ .f32 0x7F800000#32
  let main_v1 : FVec F S32x256x2048 .f32 := broadcastInDim S32x256x2048 ![] bcast_S_S32x256x2048 main_cst
  let main_v2 : IVec S32x256x2048 1 := cmpf .olt main_v0 main_v1
  let main_c : IVec S_ 1 := constantI S_ 1 1#1
  let main_v3 : IVec S_ 1 := (fun x v => Host.reduce IntOp.andi x v reducesTo_S32x256x2048_S_d0_1_2 h_S_) main_v2 main_c
  let main_v4 : FVec F S32x256x2048 .f32 := Host.absf main_arg1
  let main_cst_0 : FVec F S_ .f32 := constant S_ .f32 0x7F800000#32
  let main_v5 : FVec F S32x256x2048 .f32 := broadcastInDim S32x256x2048 ![] bcast_S_S32x256x2048 main_cst_0
  let main_v6 : IVec S32x256x2048 1 := cmpf .olt main_v4 main_v5
  let main_c_1 : IVec S_ 1 := constantI S_ 1 1#1
  let main_v7 : IVec S_ 1 := (fun x v => Host.reduce IntOp.andi x v reducesTo_S32x256x2048_S_d0_1_2 h_S_) main_v6 main_c_1
  let main_v8 : IVec S_ 1 := andi main_v3 main_v7
  let main_v9 : FVec F S32x256x2048 .f32 := Host.absf main_arg2
  let main_cst_2 : FVec F S_ .f32 := constant S_ .f32 0x7F800000#32
  let main_v10 : FVec F S32x256x2048 .f32 := broadcastInDim S32x256x2048 ![] bcast_S_S32x256x2048 main_cst_2
  let main_v11 : IVec S32x256x2048 1 := cmpf .olt main_v9 main_v10
  let main_c_3 : IVec S_ 1 := constantI S_ 1 1#1
  let main_v12 : IVec S_ 1 := (fun x v => Host.reduce IntOp.andi x v reducesTo_S32x256x2048_S_d0_1_2 h_S_) main_v11 main_c_3
  let main_v13 : IVec S_ 1 := andi main_v8 main_v12
  let main_v14 : FVec F S32x256x2048 .f32 := Host.absf main_arg3
  let main_cst_4 : FVec F S_ .f32 := constant S_ .f32 0x7F800000#32
  let main_v15 : FVec F S32x256x2048 .f32 := broadcastInDim S32x256x2048 ![] bcast_S_S32x256x2048 main_cst_4
  let main_v16 : IVec S32x256x2048 1 := cmpf .olt main_v14 main_v15
  fn_part1 (F := F) main_arg4 main_v13 main_v16
-- ==== Kernel.lean ====
abbrev S32x256x2048 : Shape := ⟨3, ![32, 256, 2048]⟩
abbrev S32x256x256 : Shape := ⟨3, ![32, 256, 256]⟩
abbrev S1x1 : Shape := ⟨2, ![1, 1]⟩
abbrev S1x256x2048 : Shape := ⟨3, ![1, 256, 2048]⟩
abbrev S1x256x256 : Shape := ⟨3, ![1, 256, 256]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S256x256 : Shape := ⟨2, ![256, 256]⟩
abbrev S_ : Shape := ⟨0, ![]⟩

abbrev nBuf : Space → Nat
  | .hbm => 19
  | .vmem => 16
  | .smem => 0
  | _ => 0

abbrev bufTy : (tb : Table) → Fin (tcTables nBuf tb) → BufTy
  | .hbm, ⟨0, _⟩ => ⟨S32x256x2048, .f32⟩
  | .hbm, ⟨1, _⟩ => ⟨S32x256x2048, .f32⟩
  | .hbm, ⟨2, _⟩ => ⟨S32x256x2048, .f32⟩
  | .hbm, ⟨3, _⟩ => ⟨S32x256x2048, .f32⟩
  | .hbm, ⟨4, _⟩ => ⟨S32x256x256, .f32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x256, .f32⟩
  | .local _ .vmem, ⟨9, _⟩ => ⟨S1x256x256, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v70 : BitVec 1 := Scalar.cmpi .eq arg0 c31_i32
  let v71 : BitVec 32 := Scalar.extui v70
  let c0_i32_42 : BitVec 32 := 0#32
  let v72 : BitVec 1 := Scalar.cmpi .ne v71 c0_i32_42
  v72

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  bitsLt_bf16_f32 : FTy.bits .bf16 < FTy.bits .f32
  transposes_S256x256_p1_0_S256x256 : S256x256.Transposes [1, 0] S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  reduces_S256x256_S256 : S256x256.Reduces [1] S256
  shapeCasts_S1x1_S_ : S1x1.ShapeCasts S_
  dot_S256x2048_S256x2048_S256x256_1_1_0_0_n_n_wf : DotDims.WF S256x2048 S256x2048 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S32x256x2048.size a
  hwx0_0 : ∀ i : grid0.Coords, EltTy.bits .f32 = 32 ∨ (Rect.block (s := S32x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S32x256x2048.size a
  hwx0_1 : ∀ i : grid0.Coords, EltTy.bits .f32 = 32 ∨ (Rect.block (s := S32x256x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S32x256x2048.size a
  hwx0_2 : ∀ i : grid0.Coords, EltTy.bits .f32 = 32 ∨ (Rect.block (s := S32x256x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S32x256x2048.size a
  hwx0_3 : ∀ i : grid0.Coords, EltTy.bits .f32 = 32 ∨ (Rect.block (s := S32x256x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S32x256x256.size a
  hwx0_4 : ∀ i : grid0.Coords, EltTy.bits .f32 = 32 ∨ (Rect.block (s := S32x256x256) S1x256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S32x256x2048 : Shape := ⟨3, ![32, 256, 2048]⟩
abbrev S32x256x256 : Shape := ⟨3, ![32, 256, 256]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S32x256x2048, .f32⟩
  | .hbm, ⟨2, _⟩ => ⟨S32x256x2048, .f32⟩
  | .hbm, ⟨3, _⟩ => ⟨S32x256x2048, .f32⟩
  | .hbm, ⟨4, _⟩ => ⟨S32x256x256, .f32⟩
  | .hbm, ⟨5, _⟩ => ⟨S32x256x2048, .f32⟩
  | .hbm, ⟨6, _⟩ => ⟨S32x256x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x256x2048, .f32⟩
  | .hbm, ⟨12, _⟩ => ⟨S32x256x2048, .f32⟩
  | .hbm, ⟨13, _⟩ => ⟨S_, .f32⟩
  | .hbm, ⟨14, _⟩ => ⟨S32x256x2048, .f32⟩
  | .hbm, ⟨15, _⟩ => ⟨S32x256x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x256x2048, .f32⟩
  | .hbm, ⟨21, _⟩ => ⟨S32x256x2048, .f32⟩
  | .hbm, ⟨22, _⟩ => ⟨S32x256x256, .f32⟩
  | .hbm, ⟨23, _⟩ => ⟨S32x256x256, .f32⟩
  | .hbm, ⟨24, _⟩ => ⟨S32x256x256, .f32⟩
  | .hbm, ⟨25, _⟩ => ⟨S_, .f32⟩
  | .hbm, ⟨26, _⟩ => ⟨S32x256x256, .f32⟩
  | .hbm, ⟨27, _⟩ => ⟨S32x256x256, .f32⟩
  | .hbm, ⟨28, _⟩ => ⟨S32x256x256, .f32⟩
  | .hbm, ⟨29, _⟩ => ⟨S32x256x256, .f32⟩
  | .hbm, ⟨30, _⟩ => ⟨S32x256x256, .f32⟩
  | .hbm, ⟨31, _⟩ => ⟨S_, .f32⟩
  | .hbm, ⟨32, _⟩ => ⟨S32x256x256, .f32⟩
  | .hbm, ⟨33, _⟩ => ⟨S32x256x256, .f32⟩
  | .hbm, ⟨34, _⟩ => ⟨S32x256x256, .f32⟩
  | .hbm, ⟨35, _⟩ => ⟨S32x256x256, .f32⟩
  | .hbm, ⟨36, _⟩ => ⟨S32x256x256, .f32⟩
  | .hbm, ⟨37, _⟩ => ⟨S_, .f32⟩
  | .hbm, ⟨38, _⟩ => ⟨S32x256x256, .f32⟩
  | .hbm, ⟨39, _⟩ => ⟨S32x256x256, .f32⟩
  | .hbm, ⟨40, _⟩ => ⟨S32x256x256, .f32⟩
  | .hbm, ⟨41, _⟩ => ⟨S32x256x256, .f32⟩
  | .hbm, ⟨42, _⟩ => ⟨S32x256x256, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  reducesTo_S32x256x2048_S_d0_1_2 : S32x256x2048.ReducesTo [0, 1, 2] S_
  h_S_ : 0 < S_.numel
  bcast_S_S32x256x2048 : S_.BroadcastsInDim S32x256x2048 (![] : Fin 0 → Fin S32x256x2048.rank)
  bcast_S_S32x256x256 : S_.BroadcastsInDim S32x256x256 (![] : Fin 0 → Fin S32x256x256.rank)
  reducesTo_S32x256x256_S_d0_1_2 : S32x256x256.ReducesTo [0, 1, 2] S_
  dot_S32x256x2048_S32x256x2048_S32x256x256_2_2_1_1_0_0_wf : DotDims.WF S32x256x2048 S32x256x2048 S32x256x256 [2] [2] [1] [1] [0] [0]

variable [Facts₀]

def dot_S32x256x2048_S32x256x2048_S32x256x256_2_2_1_1_0_0 : DotDims S32x256x2048 S32x256x2048 S32x256x256 where
  lhsContracting := [2]
  rhsContracting := [2]
  lhsNonContracting := [1]
  rhsNonContracting := [1]
  lhsBatch := [0]
  rhsBatch := [0]
  wf := dot_S32x256x2048_S32x256x2048_S32x256x256_2_2_1_1_0_0_wf

class Facts : Prop extends Facts₀ where

variable [Facts]
-- ==== Proof.KernelPieces.lean ====
import proofs.«178619_j74517682586316_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

/-
  What each case of the kernel body leaves in its three running sums and, at the last grid point, in its three
  outputs — each as the printed arithmetic of the blocks it loaded.

  The body has three cases: the first point (the sums are zeroed, then the point's contribution is added), a middle
  point (the contribution is added to what the point before left), and the last point (the same, then each sum
  divided by its count is stored to its output).  A store that covers a whole `[1, 1]` buffer leaves its payload,
  and a load of a whole buffer reads the buffer's contents.
-/
namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle point -/

theorem magB (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S1x256x2048 .f32) (x1 : Vec F S1x256x2048 .f32) (x2 : Vec F S1x256x2048 .f32) (x3 : Vec F S1x256x2048 .f32) (x4 : Vec F S1x256x256 .f32) (xs0 : Vec F S1x1 .f32) (xs1 : Vec F S1x1 .f32) (xs2 : Vec F S1x1 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 = k0_pay7 x0 x2 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  try sl_unfold_words
  rw [View.canon_unit_zero hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]

theorem phaseB (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S1x256x2048 .f32) (x1 : Vec F S1x256x2048 .f32) (x2 : Vec F S1x256x2048 .f32) (x3 : Vec F S1x256x2048 .f32) (x4 : Vec F S1x256x256 .f32) (xs0 : Vec F S1x1 .f32) (xs1 : Vec F S1x1 .f32) (xs2 : Vec F S1x1 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 = k0_pay9 (k0_pay8 x1 x3 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  try sl_unfold_words
  rw [View.canon_unit_zero hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]

theorem cohB (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S1x256x2048 .f32) (x1 : Vec F S1x256x2048 .f32) (x2 : Vec F S1x256x2048 .f32) (x3 : Vec F S1x256x2048 .f32) (x4 : Vec F S1x256x256 .f32) (xs0 : Vec F S1x1 .f32) (xs1 : Vec F S1x1 .f32) (xs2 : Vec F S1x1 .f32) :
    sout0_B_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 = k0_pay10 x1 x4 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  try sl_unfold_words
  rw [View.canon_unit_zero hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]

/-! ## The first point -/

theorem magA (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S1x256x2048 .f32) (x1 : Vec F S1x256x2048 .f32) (x2 : Vec F S1x256x2048 .f32) (x3 : Vec F S1x256x2048 .f32) (x4 : Vec F S1x256x256 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 = k0_pay7 x0 x2 (k0_pay4 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1x1) hz2]
  try rw [View.readCov_unit_zero (S := S1x1) _ hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]

theorem phaseA (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S1x256x2048 .f32) (x1 : Vec F S1x256x2048 .f32) (x2 : Vec F S1x256x2048 .f32) (x3 : Vec F S1x256x2048 .f32) (x4 : Vec F S1x256x256 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 = k0_pay9 (k0_pay8 x1 x3 (k0_pay5 (F := F))) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1x1) hz2]
  try rw [View.readCov_unit_zero (S := S1x1) _ hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]

theorem cohA (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S1x256x2048 .f32) (x1 : Vec F S1x256x2048 .f32) (x2 : Vec F S1x256x2048 .f32) (x3 : Vec F S1x256x2048 .f32) (x4 : Vec F S1x256x256 .f32) :
    sout0_A_2 c i arg1 harg1 arg2 harg2 arg3 harg3 arg4 harg4 arg5 harg5 arg6 harg6 arg7 harg7 arg8 harg8 arg9 harg9 arg10 harg10 arg11 harg11 hc0 hc1 x0 x1 x2 x3 x4 = k0_pay10 x1 x4 (k0_pay6 (F := F)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1x1) hz2]
  try rw [View.readCov_unit_zero (S := S1x1) _ hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]

/-! ## The last point -/

theorem magC (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1x256x2048 .f32) (x1 : Vec F S1x256x2048 .f32) (x2 : Vec F S1x256x2048 .f32) (x3 : Vec F S1x256x2048 .f32) (x4 : Vec F S1x256x256 .f32) (xs0 : Vec F S1x1 .f32) (xs1 : Vec F S1x1 .f32) (xs2 : Vec F S1x1 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 = k0_pay7 x0 x2 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  try sl_unfold_words
  rw [View.canon_unit_zero hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]

theorem phaseC (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1x256x2048 .f32) (x1 : Vec F S1x256x2048 .f32) (x2 : Vec F S1x256x2048 .f32) (x3 : Vec F S1x256x2048 .f32) (x4 : Vec F S1x256x256 .f32) (xs0 : Vec F S1x1 .f32) (xs1 : Vec F S1x1 .f32) (xs2 : Vec F S1x1 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 = k0_pay9 (k0_pay8 x1 x3 xs1) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  try sl_unfold_words
  rw [View.canon_unit_zero hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]

theorem cohC (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1x256x2048 .f32) (x1 : Vec F S1x256x2048 .f32) (x2 : Vec F S1x256x2048 .f32) (x3 : Vec F S1x256x2048 .f32) (x4 : Vec F S1x256x256 .f32) (xs0 : Vec F S1x1 .f32) (xs1 : Vec F S1x1 .f32) (xs2 : Vec F S1x1 .f32) :
    sout0_C_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 = k0_pay10 x1 x4 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  try sl_unfold_words
  rw [View.canon_unit_zero hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]

theorem magOutC (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1x256x2048 .f32) (x1 : Vec F S1x256x2048 .f32) (x2 : Vec F S1x256x2048 .f32) (x3 : Vec F S1x256x2048 .f32) (x4 : Vec F S1x256x256 .f32) (xs0 : Vec F S1x1 .f32) (xs1 : Vec F S1x1 .f32) (xs2 : Vec F S1x1 .f32) :
    out0_C_5 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 = k0_pay1 (k0_pay7 x0 x2 xs0) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  try sl_unfold_words
  rw [View.canon_unit_zero hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]
  rw [View.readCov_unit_zero (S := S1x1) _ hz2]

theorem phaseOutC (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1x256x2048 .f32) (x1 : Vec F S1x256x2048 .f32) (x2 : Vec F S1x256x2048 .f32) (x3 : Vec F S1x256x2048 .f32) (x4 : Vec F S1x256x256 .f32) (xs0 : Vec F S1x1 .f32) (xs1 : Vec F S1x1 .f32) (xs2 : Vec F S1x1 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 = k0_pay2 (k0_pay9 (k0_pay8 x1 x3 xs1)) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  try sl_unfold_words
  rw [View.canon_unit_zero hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]
  rw [View.readCov_unit_zero (S := S1x1) _ hz2]

theorem cohOutC (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1x256x2048 .f32) (x1 : Vec F S1x256x2048 .f32) (x2 : Vec F S1x256x2048 .f32) (x3 : Vec F S1x256x2048 .f32) (x4 : Vec F S1x256x256 .f32) (xs0 : Vec F S1x1 .f32) (xs1 : Vec F S1x1 .f32) (xs2 : Vec F S1x1 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 = k0_pay3 (k0_pay10 x1 x4 xs2) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  try sl_unfold_words
  rw [View.canon_unit_zero hz2]
  simp only [View.readAt_eq_ld, harg1.read_unread, harg2.read_unread, harg3.read_unread, harg4.read_unread, harg5.read_unread,
    harg9.read_unread, harg10.read_unread, harg11.read_unread, View.ld_unit_zero (S := S1x256x2048) hz3,
    View.ld_unit_zero (S := S1x256x256) hz3, View.ld_unit_zero (S := S1x1) hz2]
  rw [View.readCov_unit_zero (S := S1x1) _ hz2]

end Cert.KernelIdeal.Pieces

end
-- ==== Proof.LibIdx3.lean ====
/-
  Sums over a rank-3 index set.

  An index of an `[n0, n1, n2]` array is its three coordinates, so a sum over the whole index set — what a reduction
  over all three axes at once computes — is the triple sum over the coordinates, the leading axis outermost.  This is
  the step between a total taken in one go and the same total taken slice by slice along the leading axis.
-/
import Idealize.ShloMosaic.Lib.ValueIdx

noncomputable section

namespace Idealize.ShloMosaic.Idx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.Idx3

end
-- ==== Proof.LibRunningSum.lean ====
/-
  A running sum over the steps of a grid.

  An accumulator that is zeroed and given `T 0` at the first step, and given `T (n + 1)` more at every later step,
  holds after step `n` the sum of `T 0 … T n`; after the last of `N + 1` steps it holds the sum over `Fin (N + 1)`.
  Stated over any additive commutative monoid: nothing but associativity and `0 + x = x` is used, so it holds on
  the extended reals with their infinities.
-/
import Mathlib.Algebra.BigOperators.Fin

noncomputable section

namespace Idealize.ShloMosaic.RunningSum

variable {M : Type*} [AddCommMonoid M]

/-- The running sum after step `n`: `0 + T 0` first, then `+ T (n + 1)`. -/
def running (T : ℕ → M) : ℕ → M
  | 0 => 0 + T 0
  | n + 1 => running T n + T (n + 1)

/-- The running sum after step `n` is the sum of the first `n + 1` terms. -/
theorem running_eq_sum (T : ℕ → M) (n : ℕ) : running T n = ∑ t ∈ Finset.range (n + 1), T t := by
  induction n with
  | zero => simp [running]
  | succ n ih => rw [running, ih, Finset.sum_range_succ _ (n + 1)]

/-- After the last of `N + 1` steps it is the sum over `Fin (N + 1)`. -/
theorem running_last (T : ℕ → M) (N : ℕ) : running T N = ∑ b : Fin (N + 1), T b.val := by
  rw [running_eq_sum, Finset.sum_range]

end Idealize.ShloMosaic.RunningSum

end
-- ==== Proof.LossSpec.lean ====
/-
  The three losses as functions of the five argument arrays, on the extended reals.

  For arrays `X0 X1 X2 X3 : [32, 256, 2048]` and `X4 : [32, 256, 256]`:

    * the magnitude loss is the sum over every entry of `(X0 - X2)²`, divided by `2²⁴`;
    * the phase loss is the sum over every entry of `1 - cos (X1 - X3)`, divided by `2²⁴`;
    * the coherence loss is the sum over `(b, i, j)` of `(pci b i j - X4 b i j)²`, divided by `2²¹`, where
      `pci b i j = √(re² + im² + ε)`, `re = (∑ₖ cos·cos + ∑ₖ sin·sin) · 2⁻¹¹`,
      `im = (∑ₖ sin·cos − ∑ₖ cos·sin) · 2⁻¹¹` of rows `i` and `j` of `X1 b`;
    * the total is `1 · mag + ½ · phase + f32(0.3) · coh`.

  The losses are written batch by batch — a sum over the 32 batches of one batch's tile — which is the form both
  programs are compared with: a sum over a rank-3 index set is the triple sum over its coordinates, and a running
  sum from zero is the sum of its terms.  Only commutativity and associativity of `+` are used, which hold on all
  extended reals.
-/
import Idealize.ShloMosaic.PureOps.Ideal
import Idealize.ShloMosaic.PureOps.Ideal.Laws
import Idealize.ShloMosaic.Lib.ValueIdx
import proofs.«178619_j74517682586316_2_alg».proof.Proof.LibIdx3
import proofs.«178619_j74517682586316_2_alg».proof.Proof.LibRunningSum

noncomputable section

namespace Cert.LossSpec

open Idealize.ShloMosaic Idealize.ShloMosaic.ValueIdx

/-! ## The entries -/

/-- The f32 words the two programs share. -/
abbrev one : EReal := Ideal.ofBits .f32 0x3F800000#32
abbrev invF : EReal := Ideal.ofBits .f32 0x3A000000#32
abbrev eps : EReal := Ideal.ofBits .f32 0x322BCC77#32
abbrev nElems : EReal := Ideal.ofBits .f32 0x4B800000#32
abbrev nPairs : EReal := Ideal.ofBits .f32 0x4A000000#32
abbrev half : EReal := Ideal.ofBits .f32 0x3F000000#32
abbrev threeTenths : EReal := Ideal.ofBits .f32 0x3E99999A#32

/-- One entry's squared difference. -/
def sqDiff (a b : EReal) : EReal := (a - b) * (a - b)

/-- One entry's phase term `1 - cos (a - b)`. -/
def cosGap (a b : EReal) : EReal := one - Ideal.cos (a - b)

/-- The coherence estimate of rows `i`, `j` of one batch's phases `P : [256, 2048]`. -/
def pci (P : Fin 256 → Fin 2048 → EReal) (i j : Fin 256) : EReal :=
  Ideal.sqrt
    (((∑ k, Ideal.cos (P i k) * Ideal.cos (P j k)) + (∑ k, Ideal.sin (P i k) * Ideal.sin (P j k))) * invF
        * (((∑ k, Ideal.cos (P i k) * Ideal.cos (P j k)) + (∑ k, Ideal.sin (P i k) * Ideal.sin (P j k))) * invF)
      + ((∑ k, Ideal.sin (P i k) * Ideal.cos (P j k)) - (∑ k, Ideal.cos (P i k) * Ideal.sin (P j k))) * invF
        * (((∑ k, Ideal.sin (P i k) * Ideal.cos (P j k)) - (∑ k, Ideal.cos (P i k) * Ideal.sin (P j k))) * invF)
      + eps)

/-! ## The losses -/

abbrev Arr3 (n0 n1 n2 : Nat) : Type := (⟨3, ![n0, n1, n2]⟩ : Shape).Idx → EReal

/-- One batch's sum of squared differences. -/
def magTile (X0 X2 : Arr3 32 256 2048) (b : Fin 32) : EReal :=
  ∑ p : Fin 256, ∑ k : Fin 2048, sqDiff (X0 (ix3 b p k)) (X2 (ix3 b p k))

/-- One batch's sum of phase terms. -/
def phaseTile (X1 X3 : Arr3 32 256 2048) (b : Fin 32) : EReal :=
  ∑ p : Fin 256, ∑ k : Fin 2048, cosGap (X1 (ix3 b p k)) (X3 (ix3 b p k))

/-- One batch's sum of squared coherence errors. -/
def cohTile (X1 : Arr3 32 256 2048) (X4 : Arr3 32 256 256) (b : Fin 32) : EReal :=
  ∑ i : Fin 256, ∑ j : Fin 256, sqDiff (pci (fun p k => X1 (ix3 b p k)) i j) (X4 (ix3 b i j))

def magLoss (X0 X2 : Arr3 32 256 2048) : EReal := Ideal.div (∑ b : Fin 32, magTile X0 X2 b) nElems
def phaseLoss (X1 X3 : Arr3 32 256 2048) : EReal := Ideal.div (∑ b : Fin 32, phaseTile X1 X3 b) nElems
def cohLoss (X1 : Arr3 32 256 2048) (X4 : Arr3 32 256 256) : EReal := Ideal.div (∑ b : Fin 32, cohTile X1 X4 b) nPairs

/-- The weighted total of three losses. -/
def total (a b c : EReal) : EReal := one * a + half * b + threeTenths * c

end Cert.LossSpec

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColReduce.lean ====
/-
  Column reductions of a matrix, and a matrix summed to one number the way a kernel keeps dimensions.

  A reduction of an `[m, n]` array over its FIRST axis leaves one value per column.  Read at column `q`, the source
  indices that reduce to it are `(k, q)` for `k : Fin m`, so a kernel's column sum is `∑ k, x (k, q)`.

  A kernel that sums a whole `[m, n]` array one axis at a time, keeping the reduced axes as unit axes
  (`[m, n] → [m] → [m, 1] → [1] → [1, 1]`), ends with the double sum `∑ p, ∑ k, x (p, k)` at its one entry.
-/
import proofs.«178619_j74517682586316_2_alg».proof.Proof.LibRowReduce

noncomputable section

namespace Idealize.ShloMosaic.ColReduce

open Idealize.ShloMosaic Idealize.ShloMosaic.ValueIdx

/-- The source index over column `q` with coordinate `k` on the reduced first axis is `(k, q)`. -/
theorem lift_col {m n : ℕ} (h : (⟨2, ![m, n]⟩ : Shape).Reduces [0] ⟨1, ![n]⟩) (q : Fin n) (k : Fin m) :
    h.lift (ix1 q) k = ix2 k q := by
  funext c
  apply Fin.ext
  refine (h.lift_val (ix1 q) k c).trans ?_
  match c with
  | ⟨0, _⟩ => rfl
  | ⟨1, _⟩ => rfl

/-- A kernel's column sum at column `q`. -/
theorem multiReduction_add_col {m n : ℕ} {φ : FTy} (x : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ)
    (q : Fin n) :
    multiReduction .add [0] ⟨1, ![n]⟩ x acc h hφ hacc (ix1 q) = ∑ k : Fin m, x (ix2 k q) := by
  refine (Ideal.multiReduction_add_single x acc h hφ hacc (ix1 q)).trans ?_
  exact Finset.sum_congr rfl fun k _ => congrArg x (lift_col h q k)

/-- An `[m, n]` array summed over its second axis, kept as a column, summed over its first axis, kept as a `[1, 1]`
    array: its one entry is the sum of every entry of the array, rows outermost. -/
theorem keepdims_total {m n : ℕ} {φ : FTy} (x : FVec Ideal ⟨2, ![m, n]⟩ φ) (acc acc' : BitVec φ.bits)
    (h1 : (⟨2, ![m, n]⟩ : Shape).Reduces [1] ⟨1, ![m]⟩) (hφ : FKind.Formats φ) (hacc : acc = FKind.add.neutral φ hφ)
    (c1 : (⟨1, ![m]⟩ : Shape).ShapeCasts ⟨2, ![m, 1]⟩)
    (h0 : (⟨2, ![m, 1]⟩ : Shape).Reduces [0] ⟨1, ![1]⟩) (hφ' : FKind.Formats φ) (hacc' : acc' = FKind.add.neutral φ hφ')
    (c0 : (⟨1, ![1]⟩ : Shape).ShapeCasts ⟨2, ![1, 1]⟩) :
    shapeCast ⟨2, ![1, 1]⟩
        (multiReduction .add [0] ⟨1, ![1]⟩
          (shapeCast ⟨2, ![m, 1]⟩ (multiReduction .add [1] ⟨1, ![m]⟩ x acc h1 hφ hacc) c1) acc' h0 hφ' hacc') c0
        (ix2 (0 : Fin 1) (0 : Fin 1))
      = ∑ p : Fin m, ∑ k : Fin n, x (ix2 p k) := by
  refine (RowReduce.shapeCast_a_a1_apply _ c0 (0 : Fin 1) (0 : Fin 1)).trans ?_
  refine (multiReduction_add_col _ acc' h0 hφ' hacc' (0 : Fin 1)).trans ?_
  refine Finset.sum_congr rfl fun p _ => ?_
  refine (RowReduce.shapeCast_a_a1_apply _ c1 p (0 : Fin 1)).trans ?_
  exact RowReduce.multiReduction_add_row x acc h1 hφ hacc p

end Idealize.ShloMosaic.ColReduce

end
-- ==== Proof.KTile.lean ====
/-
  What the kernel adds to its three running sums at one grid point, on the extended reals.

  At a point the kernel holds one batch of each argument: blocks `[1, 256, 2048]` (and `[1, 256, 256]` for the
  coherence target).  It sums a `[256, n]` array one axis at a time keeping unit axes, which leaves the double sum over
  rows and columns in the one entry of a `[1, 1]` array.  The three arrays it sums are

    * the squared differences of the magnitude blocks,
    * `1 - cos` of the differences of the phase blocks,
    * the squared differences between the coherence estimate and its target, where the estimate of rows `i`, `j` is
      built from three products over the frequency axis — cos·cos, sin·sin and sin·cos of rows `i` and `j` — the
      fourth, cos·sin, being the sin·cos product read at `(j, i)` (multiplication commutes).

  The change of float format before the products is the identity on the extended reals.
-/
import proofs.«178619_j74517682586316_2_alg».proof.Proof.Gen.KernelIdeal.Skeleton
import proofs.«178619_j74517682586316_2_alg».proof.Proof.LossSpec
import proofs.«178619_j74517682586316_2_alg».proof.Proof.LibColReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx Cert.LossSpec

variable {F : FTy → Type} [FloatOps F]

/-! ## The kernel's intermediate values, named -/

/-- A `[256, 2048]` array summed over its columns, then its rows, unit axes kept. -/
def total2048 (v : FVec F S256x2048 .f32) : FVec F S1x1 .f32 :=
  shapeCast S1x1 (multiReduction .add [0] S1 (shapeCast S256x1 (multiReduction .add [1] S256 v 0x00000000#32
    reduces_S256x2048_S256 (.inl rfl) rfl) shapeCasts_S256_S256x1) 0x00000000#32 reduces_S256x1_S1 (.inl rfl) rfl)
    shapeCasts_S1_S1x1

/-- A `[256, 256]` array summed the same way. -/
def total256 (v : FVec F S256x256 .f32) : FVec F S1x1 .f32 :=
  shapeCast S1x1 (multiReduction .add [0] S1 (shapeCast S256x1 (multiReduction .add [1] S256 v 0x00000000#32
    reduces_S256x256_S256 (.inl rfl) rfl) shapeCasts_S256_S256x1) 0x00000000#32 reduces_S256x1_S1 (.inl rfl) rfl)
    shapeCasts_S1_S1x1

/-- A block with its leading unit axis dropped. -/
def mat (x : Vec F S1x256x2048 .f32) : FVec F S256x2048 .f32 := shapeCast S256x2048 x shapeCasts_S1x256x2048_S256x2048

/-- The squared differences of two blocks. -/
def sqDiffMat (x y : Vec F S1x256x2048 .f32) : FVec F S256x2048 .f32 := mulf (subf (mat x) (mat y)) (subf (mat x) (mat y))

/-- `1 - cos` of the differences of two blocks. -/
def cosGapMat (x y : Vec F S1x256x2048 .f32) : FVec F S256x2048 .f32 :=
  subf (broadcast S256x2048 (Scalar.ofBits .f32 0x3F800000#32)) (cos (subf (mat x) (mat y)))

/-- Cosines and sines of a phase block, in the products' operand format. -/
def cosB (x : Vec F S1x256x2048 .f32) : FVec F S256x2048 .bf16 := truncf .bf16 (cos (mat x)) bitsLt_bf16_f32
def sinB (x : Vec F S1x256x2048 .f32) : FVec F S256x2048 .bf16 := truncf .bf16 (sin (mat x)) bitsLt_bf16_f32

/-- The product of the rows of `L` with the rows of `R` over the frequency axis, from zero. -/
def gram (L R : FVec F S256x2048 .bf16) : FVec F S256x256 .f32 :=
  matmul dot_S256x2048_S256x2048_S256x256_1_1_0_0_n_n none L R (constant S256x256 .f32 0x00000000#32)

/-- The real part of the coherence estimate, all row pairs. -/
def reMat (x : Vec F S1x256x2048 .f32) : FVec F S256x256 .f32 :=
  mulf (addf (gram (cosB x) (cosB x)) (gram (sinB x) (sinB x))) (broadcast S256x256 (Scalar.ofBits .f32 0x3A000000#32))

/-- Its imaginary part: sin·cos minus that product transposed. -/
def imMat (x : Vec F S1x256x2048 .f32) : FVec F S256x256 .f32 :=
  mulf (subf (gram (sinB x) (cosB x)) (transpose S256x256 [1, 0] (gram (sinB x) (cosB x)) transposes_S256x256_p1_0_S256x256))
    (broadcast S256x256 (Scalar.ofBits .f32 0x3A000000#32))

/-- The coherence estimate, all row pairs. -/
def pciMat (x : Vec F S1x256x2048 .f32) : FVec F S256x256 .f32 :=
  sqrt (addf (addf (mulf (reMat x) (reMat x)) (mulf (imMat x) (imMat x))) (broadcast S256x256 (Scalar.ofBits .f32 0x322BCC77#32)))

/-- The squared coherence errors. -/
def cohErrMat (x : Vec F S1x256x2048 .f32) (y : Vec F S1x256x256 .f32) : FVec F S256x256 .f32 :=
  mulf (subf (pciMat x) (shapeCast S256x256 y shapeCasts_S1x256x256_S256x256))
    (subf (pciMat x) (shapeCast S256x256 y shapeCasts_S1x256x256_S256x256))

/-! ## The printed payloads over those names -/

theorem pay7_form (x0 x2 : Vec F S1x256x2048 .f32) (xs : Vec F S1x1 .f32) :
    k0_pay7 x0 x2 xs = shapeCast S1x1 (addf xs (total2048 (sqDiffMat x0 x2))) shapeCasts_S1x1_S1x1 := rfl

theorem pay98_form (x1 x3 : Vec F S1x256x2048 .f32) (xs : Vec F S1x1 .f32) :
    k0_pay9 (k0_pay8 x1 x3 xs) = shapeCast S1x1 (addf xs (total2048 (cosGapMat x1 x3))) shapeCasts_S1x1_S1x1 := rfl

theorem pay10_form (x1 : Vec F S1x256x2048 .f32) (x4 : Vec F S1x256x256 .f32) (xs : Vec F S1x1 .f32) :
    k0_pay10 x1 x4 xs = shapeCast S1x1 (addf xs (total256 (cohErrMat x1 x4))) shapeCasts_S1x1_S1x1 := rfl

/-! ## Read at an index, on the extended reals -/

/-- The one index of a `[1, 1]` array. -/
theorem idx11 (j : S1x1.Idx) : j = ix2 (0 : Fin 1) (0 : Fin 1) := by
  have h0 : (j 0).val < 1 := idx2_lt0 j
  have h1 : (j 1).val < 1 := idx2_lt1 j
  funext d
  apply Fin.ext
  match d with
  | ⟨0, _⟩ => show (j 0).val = 0; omega
  | ⟨1, _⟩ => show (j 1).val = 0; omega

theorem cos_apply {s : Shape} {φ : FTy} (v : FVec Ideal s φ) (i : s.Idx) : cos v i = Ideal.cos (v i) := rfl
theorem sin_apply {s : Shape} {φ : FTy} (v : FVec Ideal s φ) (i : s.Idx) : sin v i = Ideal.sin (v i) := rfl
theorem sqrt_apply {s : Shape} {φ : FTy} (v : FVec Ideal s φ) (i : s.Idx) : sqrt v i = Ideal.sqrt (v i) := rfl

theorem total2048_apply (v : FVec Ideal S256x2048 .f32) :
    total2048 v (ix2 (0 : Fin 1) (0 : Fin 1)) = ∑ p : Fin 256, ∑ k : Fin 2048, v (ix2 p k) :=
  ColReduce.keepdims_total v _ _ reduces_S256x2048_S256 (.inl rfl) rfl shapeCasts_S256_S256x1 reduces_S256x1_S1 (.inl rfl) rfl
    shapeCasts_S1_S1x1

theorem total256_apply (v : FVec Ideal S256x256 .f32) :
    total256 v (ix2 (0 : Fin 1) (0 : Fin 1)) = ∑ p : Fin 256, ∑ k : Fin 256, v (ix2 p k) :=
  ColReduce.keepdims_total v _ _ reduces_S256x256_S256 (.inl rfl) rfl shapeCasts_S256_S256x1 reduces_S256x1_S1 (.inl rfl) rfl
    shapeCasts_S1_S1x1

theorem mat_apply (x : Vec Ideal S1x256x2048 .f32) (p : Fin 256) (k : Fin 2048) :
    mat x (ix2 p k) = x (ix3 (0 : Fin 1) p k) :=
  shapeCast_1ab_ab_apply x shapeCasts_S1x256x2048_S256x2048 p k

theorem sqDiffMat_apply (x y : Vec Ideal S1x256x2048 .f32) (p : Fin 256) (k : Fin 2048) :
    sqDiffMat x y (ix2 p k) = sqDiff (x (ix3 (0 : Fin 1) p k)) (y (ix3 (0 : Fin 1) p k)) := by
  unfold sqDiffMat sqDiff
  rw [mulf_apply, subf_apply, mat_apply, mat_apply]

theorem cosGapMat_apply (x y : Vec Ideal S1x256x2048 .f32) (p : Fin 256) (k : Fin 2048) :
    cosGapMat x y (ix2 p k) = cosGap (x (ix3 (0 : Fin 1) p k)) (y (ix3 (0 : Fin 1) p k)) := by
  unfold cosGapMat cosGap
  rw [subf_apply, cos_apply, subf_apply, mat_apply, mat_apply]
  rfl

theorem cosB_apply (x : Vec Ideal S1x256x2048 .f32) (p : Fin 256) (k : Fin 2048) :
    cosB x (ix2 p k) = Ideal.cos (x (ix3 (0 : Fin 1) p k)) := by
  unfold cosB
  rw [truncf_apply, cos_apply, mat_apply]

theorem sinB_apply (x : Vec Ideal S1x256x2048 .f32) (p : Fin 256) (k : Fin 2048) :
    sinB x (ix2 p k) = Ideal.sin (x (ix3 (0 : Fin 1) p k)) := by
  unfold sinB
  rw [truncf_apply, sin_apply, mat_apply]

/-- The product's operand indices at entry `(i, j)`: the left operand's row is `i`, the right operand's row is `j`,
    and both read the contracted frequency. -/
theorem gram_lhs0 (i j : Fin 256) (q : dot_S256x2048_S256x2048_S256x256_1_1_0_0_n_n.contr.Idx) : (dot_S256x2048_S256x2048_S256x256_1_1_0_0_n_n.lhsIdx (ix2 i j) q 0).val = i.val := by
  unfold DotDims.lhsIdx
  rw [dif_neg (show ¬(0 : Fin S256x2048.rank) ∈ dot_S256x2048_S256x2048_S256x256_1_1_0_0_n_n.lhsBatch by decide),
    dif_pos (show (0 : Fin S256x2048.rank) ∈ dot_S256x2048_S256x2048_S256x256_1_1_0_0_n_n.lhsNonContracting by decide)]
  rfl
theorem gram_rhs0 (i j : Fin 256) (q : dot_S256x2048_S256x2048_S256x256_1_1_0_0_n_n.contr.Idx) : (dot_S256x2048_S256x2048_S256x256_1_1_0_0_n_n.rhsIdx (ix2 i j) q 0).val = j.val := by
  unfold DotDims.rhsIdx
  rw [dif_neg (show ¬(0 : Fin S256x2048.rank) ∈ dot_S256x2048_S256x2048_S256x256_1_1_0_0_n_n.rhsBatch by decide),
    dif_pos (show (0 : Fin S256x2048.rank) ∈ dot_S256x2048_S256x2048_S256x256_1_1_0_0_n_n.rhsNonContracting by decide)]
  rfl
theorem gram_lhs (i j : Fin 256) (q : dot_S256x2048_S256x2048_S256x256_1_1_0_0_n_n.contr.Idx) (k : Fin 2048)
    (hk : (q ⟨0, by decide⟩).val = k.val) : dot_S256x2048_S256x2048_S256x256_1_1_0_0_n_n.lhsIdx (ix2 i j) q = ix2 i k :=
  funext fun a => Fin.ext (by
    match a with
    | ⟨0, _⟩ => exact gram_lhs0 i j q
    | ⟨1, _⟩ => exact (dot_S256x2048_S256x2048_S256x256_1_1_0_0_n_n.lhsIdx_val_of_single rfl (ix2 i j) q).trans hk)
theorem gram_rhs (i j : Fin 256) (q : dot_S256x2048_S256x2048_S256x256_1_1_0_0_n_n.contr.Idx) (k : Fin 2048)
    (hk : (q ⟨0, by decide⟩).val = k.val) : dot_S256x2048_S256x2048_S256x256_1_1_0_0_n_n.rhsIdx (ix2 i j) q = ix2 j k :=
  funext fun a => Fin.ext (by
    match a with
    | ⟨0, _⟩ => exact gram_rhs0 i j q
    | ⟨1, _⟩ => exact (dot_S256x2048_S256x2048_S256x256_1_1_0_0_n_n.rhsIdx_val_of_single rfl (ix2 i j) q).trans hk)

/-- The product of rows: entry `(i, j)` is the sum over the frequency axis of row `i` of `L` times row `j` of `R`. -/
theorem gram_apply (L R : FVec Ideal S256x2048 .bf16) (i j : Fin 256) :
    gram L R (ix2 i j) = ∑ k : Fin 2048, L (ix2 i k) * R (ix2 j k) := by
  unfold gram
  simp only [matmul]
  rw [Ideal.matmul_constant_zero_apply, ← Equiv.sum_comp (contrEquiv1 dot_S256x2048_S256x2048_S256x256_1_1_0_0_n_n 2048 rfl rfl).symm]
  refine Finset.sum_congr rfl fun k _ => ?_
  have hk := contrEquiv1_symm_val dot_S256x2048_S256x2048_S256x256_1_1_0_0_n_n 2048 rfl rfl k
  rw [gram_lhs i j _ k hk, gram_rhs i j _ k hk]

/-! ## The coherence estimate at a row pair -/

theorem reMat_apply (x : Vec Ideal S1x256x2048 .f32) (i j : Fin 256) :
    reMat x (ix2 i j)
      = ((∑ k : Fin 2048, Ideal.cos (x (ix3 (0 : Fin 1) i k)) * Ideal.cos (x (ix3 (0 : Fin 1) j k)))
          + (∑ k : Fin 2048, Ideal.sin (x (ix3 (0 : Fin 1) i k)) * Ideal.sin (x (ix3 (0 : Fin 1) j k)))) * invF := by
  unfold reMat
  rw [mulf_apply, addf_apply, gram_apply, gram_apply, broadcast_apply]
  simp only [cosB_apply, sinB_apply]
  rfl

/-- The transposed sin·cos product at `(i, j)` is the cos·sin product of rows `i` and `j`. -/
theorem imMat_apply (x : Vec Ideal S1x256x2048 .f32) (i j : Fin 256) :
    imMat x (ix2 i j)
      = ((∑ k : Fin 2048, Ideal.sin (x (ix3 (0 : Fin 1) i k)) * Ideal.cos (x (ix3 (0 : Fin 1) j k)))
          - (∑ k : Fin 2048, Ideal.cos (x (ix3 (0 : Fin 1) i k)) * Ideal.sin (x (ix3 (0 : Fin 1) j k)))) * invF := by
  unfold imMat
  rw [mulf_apply, subf_apply, transpose_ix2_apply, gram_apply, gram_apply, broadcast_apply]
  simp only [cosB_apply, sinB_apply]
  rw [show (∑ k : Fin 2048, Ideal.sin (x (ix3 (0 : Fin 1) j k)) * Ideal.cos (x (ix3 (0 : Fin 1) i k)))
      = ∑ k : Fin 2048, Ideal.cos (x (ix3 (0 : Fin 1) i k)) * Ideal.sin (x (ix3 (0 : Fin 1) j k))
      from Finset.sum_congr rfl fun k _ => mul_comm _ _]
  rfl

theorem pciMat_apply (x : Vec Ideal S1x256x2048 .f32) (i j : Fin 256) :
    pciMat x (ix2 i j) = pci (fun p k => x (ix3 (0 : Fin 1) p k)) i j := by
  unfold pciMat pci
  rw [sqrt_apply, addf_apply, addf_apply, mulf_apply, mulf_apply, reMat_apply, imMat_apply, broadcast_apply]
  rfl

theorem cohErrMat_apply (x : Vec Ideal S1x256x2048 .f32) (y : Vec Ideal S1x256x256 .f32) (i j : Fin 256) :
    cohErrMat x y (ix2 i j) = sqDiff (pci (fun p k => x (ix3 (0 : Fin 1) p k)) i j) (y (ix3 (0 : Fin 1) i j)) := by
  unfold cohErrMat sqDiff
  rw [mulf_apply, subf_apply, pciMat_apply, shapeCast_1ab_ab_apply]

/-! ## The payloads as functions -/

/-- The magnitude sum's update: what it held plus the block's sum of squared differences. -/
theorem pay7_apply (x0 x2 : Vec Ideal S1x256x2048 .f32) (xs : Vec Ideal S1x1 .f32) :
    k0_pay7 (F := Ideal) x0 x2 xs
      = fun _ => xs (ix2 (0 : Fin 1) (0 : Fin 1))
          + ∑ p : Fin 256, ∑ k : Fin 2048, sqDiff (x0 (ix3 (0 : Fin 1) p k)) (x2 (ix3 (0 : Fin 1) p k)) := by
  funext j
  obtain rfl := idx11 j
  rw [pay7_form, shapeCast_self, addf_apply, total2048_apply]
  exact congrArg (xs (ix2 (0 : Fin 1) (0 : Fin 1)) + ·)
    (Finset.sum_congr rfl fun p _ => Finset.sum_congr rfl fun k _ => sqDiffMat_apply x0 x2 p k)

/-- The phase sum's update. -/
theorem pay98_apply (x1 x3 : Vec Ideal S1x256x2048 .f32) (xs : Vec Ideal S1x1 .f32) :
    k0_pay9 (F := Ideal) (k0_pay8 x1 x3 xs)
      = fun _ => xs (ix2 (0 : Fin 1) (0 : Fin 1))
          + ∑ p : Fin 256, ∑ k : Fin 2048, cosGap (x1 (ix3 (0 : Fin 1) p k)) (x3 (ix3 (0 : Fin 1) p k)) := by
  funext j
  obtain rfl := idx11 j
  rw [pay98_form, shapeCast_self, addf_apply, total2048_apply]
  exact congrArg (xs (ix2 (0 : Fin 1) (0 : Fin 1)) + ·)
    (Finset.sum_congr rfl fun p _ => Finset.sum_congr rfl fun k _ => cosGapMat_apply x1 x3 p k)

/-- The coherence sum's update. -/
theorem pay10_apply (x1 : Vec Ideal S1x256x2048 .f32) (x4 : Vec Ideal S1x256x256 .f32) (xs : Vec Ideal S1x1 .f32) :
    k0_pay10 (F := Ideal) x1 x4 xs
      = fun _ => xs (ix2 (0 : Fin 1) (0 : Fin 1))
          + ∑ i : Fin 256, ∑ j : Fin 256,
              sqDiff (pci (fun p k => x1 (ix3 (0 : Fin 1) p k)) i j) (x4 (ix3 (0 : Fin 1) i j)) := by
  funext j
  obtain rfl := idx11 j
  rw [pay10_form, shapeCast_self, addf_apply, total256_apply]
  exact congrArg (xs (ix2 (0 : Fin 1) (0 : Fin 1)) + ·)
    (Finset.sum_congr rfl fun p _ => Finset.sum_congr rfl fun k _ => cohErrMat_apply x1 x4 p k)

/-- The three sums are zeroed with the zero word. -/
theorem pay4_apply : k0_pay4 (F := Ideal) = fun _ => 0 := by
  funext j
  show Ideal.ofBits .f32 0x00000000#32 = 0
  exact Ideal.ofBits_zero_f32
theorem pay5_apply : k0_pay5 (F := Ideal) = fun _ => 0 := by
  funext j
  show Ideal.ofBits .f32 0x00000000#32 = 0
  exact Ideal.ofBits_zero_f32
theorem pay6_apply : k0_pay6 (F := Ideal) = fun _ => 0 := by
  funext j
  show Ideal.ofBits .f32 0x00000000#32 = 0
  exact Ideal.ofBits_zero_f32

/-- The outputs: a sum divided by its count. -/
theorem pay1_apply (v : Vec Ideal S1x1 .f32) : k0_pay1 (F := Ideal) v = fun j => Ideal.div (v j) nElems := rfl
theorem pay2_apply (v : Vec Ideal S1x1 .f32) : k0_pay2 (F := Ideal) v = fun j => Ideal.div (v j) nElems := rfl
theorem pay3_apply (v : Vec Ideal S1x1 .f32) : k0_pay3 (F := Ideal) v = fun j => Ideal.div (v j) nPairs := rfl

end Cert.KernelIdeal.Tile

end
-- ==== Proof.KernelSums.lean ====
/-
  The kernel's four results on the extended reals.

  A grid point `t` stages batch `t` of every argument.  The three running sums after point `n` are the running
  sums of the per-batch tiles (induction on the point: the first point starts from zero, every later point adds its
  tile to what the point before left).  The outputs are written at the last point only — each running sum divided
  by its count — and that one write-back covers each `[1, 1]` result array.  The lines after the call reshape the
  three arrays to scalars and form the weighted total.
-/
import proofs.«178619_j74517682586316_2_alg».proof.Proof.Gen.KernelIdeal.Frame
import proofs.«178619_j74517682586316_2_alg».proof.Proof.KernelPieces
import proofs.«178619_j74517682586316_2_alg».proof.Proof.KTile
import proofs.«178619_j74517682586316_2_alg».proof.Proof.LossSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open Idealize.ShloMosaic.RunningSum

namespace Cert.KernelIdeal.Sums

open Cert.KernelIdeal Cert.KernelIdeal.Gen Cert.KernelIdeal.Tile Cert.KernelIdeal.Pieces Cert.LossSpec

variable (m : (ℓ : Loc nD τ sig) → Buf (Elt Ideal) ℓ) (ρ : Dev nD → PrngReg)

/-! ## The argument arrays and their blocks -/

abbrev X0 (c : Dev nD) : Arr3 32 256 2048 := m ((c.tc : Thread nD τ).loc main_arg0)
abbrev X1 (c : Dev nD) : Arr3 32 256 2048 := m ((c.tc : Thread nD τ).loc main_arg1)
abbrev X2 (c : Dev nD) : Arr3 32 256 2048 := m ((c.tc : Thread nD τ).loc main_arg2)
abbrev X3 (c : Dev nD) : Arr3 32 256 2048 := m ((c.tc : Thread nD τ).loc main_arg3)
abbrev X4 (c : Dev nD) : Arr3 32 256 256 := m ((c.tc : Thread nD τ).loc main_arg4)

theorem hN : cfg0.N = 32 := N_0

/-- The batch a grid point works on. -/
def batch (t : Fin cfg0.N) : Fin 32 := ⟨t.val, lt_of_lt_of_eq t.isLt hN⟩

/-- Window `w`'s block at point `t` is batch `t` of its array. -/
theorem blk0 (c : Dev nD) (t : Fin cfg0.N) (p : Fin 256) (k : Fin 2048) :
    (iblk m c 0 t : Vec Ideal S1x256x2048 .f32) (ix3 (0 : Fin 1) p k) = X0 m c (ix3 (batch t) p k) := by
  have hi : win0_0.index t 0 = t.val ∧ win0_0.index t 1 = 0 ∧ win0_0.index t 2 = 0 :=
    (by decide +kernel : ∀ t : Fin grid0.N, win0_0.index t 0 = t.val ∧ win0_0.index t 1 = 0 ∧ win0_0.index t 2 = 0) t
  unfold iblk
  rw [View.read_apply]
  show m ((c.tc : Thread nD τ).loc main_arg0) _ = m ((c.tc : Thread nD τ).loc main_arg0) _
  refine congrArg _ ?_
  funext a
  apply Fin.ext
  match a with
  | ⟨0, _⟩ => show win0_0.index t 0 * 1 + 1 * 0 = t.val; rw [hi.1]; omega
  | ⟨1, _⟩ => show win0_0.index t 1 * 256 + 1 * p.val = p.val; rw [hi.2.1]; omega
  | ⟨2, _⟩ => show win0_0.index t 2 * 2048 + 1 * k.val = k.val; rw [hi.2.2]; omega

theorem blk1 (c : Dev nD) (t : Fin cfg0.N) (p : Fin 256) (k : Fin 2048) :
    (iblk m c 1 t : Vec Ideal S1x256x2048 .f32) (ix3 (0 : Fin 1) p k) = X1 m c (ix3 (batch t) p k) := by
  have hi : win0_1.index t 0 = t.val ∧ win0_1.index t 1 = 0 ∧ win0_1.index t 2 = 0 :=
    (by decide +kernel : ∀ t : Fin grid0.N, win0_1.index t 0 = t.val ∧ win0_1.index t 1 = 0 ∧ win0_1.index t 2 = 0) t
  unfold iblk
  rw [View.read_apply]
  show m ((c.tc : Thread nD τ).loc main_arg1) _ = m ((c.tc : Thread nD τ).loc main_arg1) _
  refine congrArg _ ?_
  funext a
  apply Fin.ext
  match a with
  | ⟨0, _⟩ => show win0_1.index t 0 * 1 + 1 * 0 = t.val; rw [hi.1]; omega
  | ⟨1, _⟩ => show win0_1.index t 1 * 256 + 1 * p.val = p.val; rw [hi.2.1]; omega
  | ⟨2, _⟩ => show win0_1.index t 2 * 2048 + 1 * k.val = k.val; rw [hi.2.2]; omega

theorem blk2 (c : Dev nD) (t : Fin cfg0.N) (p : Fin 256) (k : Fin 2048) :
    (iblk m c 2 t : Vec Ideal S1x256x2048 .f32) (ix3 (0 : Fin 1) p k) = X2 m c (ix3 (batch t) p k) := by
  have hi : win0_2.index t 0 = t.val ∧ win0_2.index t 1 = 0 ∧ win0_2.index t 2 = 0 :=
    (by decide +kernel : ∀ t : Fin grid0.N, win0_2.index t 0 = t.val ∧ win0_2.index t 1 = 0 ∧ win0_2.index t 2 = 0) t
  unfold iblk
  rw [View.read_apply]
  show m ((c.tc : Thread nD τ).loc main_arg2) _ = m ((c.tc : Thread nD τ).loc main_arg2) _
  refine congrArg _ ?_
  funext a
  apply Fin.ext
  match a with
  | ⟨0, _⟩ => show win0_2.index t 0 * 1 + 1 * 0 = t.val; rw [hi.1]; omega
  | ⟨1, _⟩ => show win0_2.index t 1 * 256 + 1 * p.val = p.val; rw [hi.2.1]; omega
  | ⟨2, _⟩ => show win0_2.index t 2 * 2048 + 1 * k.val = k.val; rw [hi.2.2]; omega

theorem blk3 (c : Dev nD) (t : Fin cfg0.N) (p : Fin 256) (k : Fin 2048) :
    (iblk m c 3 t : Vec Ideal S1x256x2048 .f32) (ix3 (0 : Fin 1) p k) = X3 m c (ix3 (batch t) p k) := by
  have hi : win0_3.index t 0 = t.val ∧ win0_3.index t 1 = 0 ∧ win0_3.index t 2 = 0 :=
    (by decide +kernel : ∀ t : Fin grid0.N, win0_3.index t 0 = t.val ∧ win0_3.index t 1 = 0 ∧ win0_3.index t 2 = 0) t
  unfold iblk
  rw [View.read_apply]
  show m ((c.tc : Thread nD τ).loc main_arg3) _ = m ((c.tc : Thread nD τ).loc main_arg3) _
  refine congrArg _ ?_
  funext a
  apply Fin.ext
  match a with
  | ⟨0, _⟩ => show win0_3.index t 0 * 1 + 1 * 0 = t.val; rw [hi.1]; omega
  | ⟨1, _⟩ => show win0_3.index t 1 * 256 + 1 * p.val = p.val; rw [hi.2.1]; omega
  | ⟨2, _⟩ => show win0_3.index t 2 * 2048 + 1 * k.val = k.val; rw [hi.2.2]; omega

theorem blk4 (c : Dev nD) (t : Fin cfg0.N) (p : Fin 256) (k : Fin 256) :
    (iblk m c 4 t : Vec Ideal S1x256x256 .f32) (ix3 (0 : Fin 1) p k) = X4 m c (ix3 (batch t) p k) := by
  have hi : win0_4.index t 0 = t.val ∧ win0_4.index t 1 = 0 ∧ win0_4.index t 2 = 0 :=
    (by decide +kernel : ∀ t : Fin grid0.N, win0_4.index t 0 = t.val ∧ win0_4.index t 1 = 0 ∧ win0_4.index t 2 = 0) t
  unfold iblk
  rw [View.read_apply]
  show m ((c.tc : Thread nD τ).loc main_arg4) _ = m ((c.tc : Thread nD τ).loc main_arg4) _
  refine congrArg _ ?_
  funext a
  apply Fin.ext
  match a with
  | ⟨0, _⟩ => show win0_4.index t 0 * 1 + 1 * 0 = t.val; rw [hi.1]; omega
  | ⟨1, _⟩ => show win0_4.index t 1 * 256 + 1 * p.val = p.val; rw [hi.2.1]; omega
  | ⟨2, _⟩ => show win0_4.index t 2 * 256 + 1 * k.val = k.val; rw [hi.2.2]; omega

/-! ## One point's three contributions -/

def blkMag (x0 x2 : Vec Ideal S1x256x2048 .f32) : EReal :=
  ∑ p : Fin 256, ∑ k : Fin 2048, sqDiff (x0 (ix3 (0 : Fin 1) p k)) (x2 (ix3 (0 : Fin 1) p k))
def blkPhase (x1 x3 : Vec Ideal S1x256x2048 .f32) : EReal :=
  ∑ p : Fin 256, ∑ k : Fin 2048, cosGap (x1 (ix3 (0 : Fin 1) p k)) (x3 (ix3 (0 : Fin 1) p k))
def blkCoh (x1 : Vec Ideal S1x256x2048 .f32) (x4 : Vec Ideal S1x256x256 .f32) : EReal :=
  ∑ i : Fin 256, ∑ j : Fin 256, sqDiff (pci (fun p k => x1 (ix3 (0 : Fin 1) p k)) i j) (x4 (ix3 (0 : Fin 1) i j))

/-- The per-batch tiles, indexed by a natural number (zero past the last batch). -/
def Tmag (c : Dev nD) (n : ℕ) : EReal := if h : n < 32 then magTile (X0 m c) (X2 m c) ⟨n, h⟩ else 0
def Tphase (c : Dev nD) (n : ℕ) : EReal := if h : n < 32 then phaseTile (X1 m c) (X3 m c) ⟨n, h⟩ else 0
def Tcoh (c : Dev nD) (n : ℕ) : EReal := if h : n < 32 then cohTile (X1 m c) (X4 m c) ⟨n, h⟩ else 0

theorem magAt (c : Dev nD) (t : Fin cfg0.N) : blkMag (iblk m c 0 t) (iblk m c 2 t) = Tmag m c t.val := by
  unfold Tmag blkMag
  rw [dif_pos (lt_of_lt_of_eq t.isLt hN)]
  unfold magTile
  exact Finset.sum_congr rfl fun p _ => Finset.sum_congr rfl fun k _ => by rw [blk0, blk2]; rfl

theorem phaseAt (c : Dev nD) (t : Fin cfg0.N) : blkPhase (iblk m c 1 t) (iblk m c 3 t) = Tphase m c t.val := by
  unfold Tphase blkPhase
  rw [dif_pos (lt_of_lt_of_eq t.isLt hN)]
  unfold phaseTile
  exact Finset.sum_congr rfl fun p _ => Finset.sum_congr rfl fun k _ => by rw [blk1, blk3]; rfl

theorem cohAt (c : Dev nD) (t : Fin cfg0.N) : blkCoh (iblk m c 1 t) (iblk m c 4 t) = Tcoh m c t.val := by
  unfold Tcoh blkCoh
  rw [dif_pos (lt_of_lt_of_eq t.isLt hN)]
  unfold cohTile
  refine Finset.sum_congr rfl fun i _ => Finset.sum_congr rfl fun j _ => ?_
  rw [blk4]
  have e : (fun (p : Fin 256) (k : Fin 2048) => (iblk m c 1 t : Vec Ideal S1x256x2048 .f32) (ix3 (0 : Fin 1) p k))
      = fun p k => X1 m c (ix3 (batch t) p k) := funext fun p => funext fun k => blk1 m c t p k
  rw [e]
  rfl

/-! ## The three cases' values -/

theorem caseA_vals (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec Ideal S1x256x2048 .f32) (x1 : Vec Ideal S1x256x2048 .f32) (x2 : Vec Ideal S1x256x2048 .f32) (x3 : Vec Ideal S1x256x2048 .f32) (x4 : Vec Ideal S1x256x256 .f32) :
    (sout0_A_0 c i arg1 harg1 arg2 harg2 arg3 harg3 arg4 harg4 arg5 harg5 arg6 harg6 arg7 harg7 arg8 harg8 arg9 harg9 arg10 harg10 arg11 harg11 hc0 hc1 x0 x1 x2 x3 x4, sout0_A_1 c i arg1 harg1 arg2 harg2 arg3 harg3 arg4 harg4 arg5 harg5 arg6 harg6 arg7 harg7 arg8 harg8 arg9 harg9 arg10 harg10 arg11 harg11 hc0 hc1 x0 x1 x2 x3 x4, sout0_A_2 c i arg1 harg1 arg2 harg2 arg3 harg3 arg4 harg4 arg5 harg5 arg6 harg6 arg7 harg7 arg8 harg8 arg9 harg9 arg10 harg10 arg11 harg11 hc0 hc1 x0 x1 x2 x3 x4)
      = ((fun _ => 0 + blkMag x0 x2), (fun _ => 0 + blkPhase x1 x3), (fun _ => 0 + blkCoh x1 x4)) := by
  rw [magA, phaseA, cohA, pay7_apply, pay98_apply, pay10_apply, pay4_apply, pay5_apply, pay6_apply]
  rfl

theorem caseB_vals (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec Ideal S1x256x2048 .f32) (x1 : Vec Ideal S1x256x2048 .f32) (x2 : Vec Ideal S1x256x2048 .f32) (x3 : Vec Ideal S1x256x2048 .f32) (x4 : Vec Ideal S1x256x256 .f32) (xs0 : Vec Ideal S1x1 .f32) (xs1 : Vec Ideal S1x1 .f32) (xs2 : Vec Ideal S1x1 .f32) :
    (sout0_B_0 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2, sout0_B_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2, sout0_B_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)
      = ((fun _ => xs0 (ix2 (0 : Fin 1) (0 : Fin 1)) + blkMag x0 x2), (fun _ => xs1 (ix2 (0 : Fin 1) (0 : Fin 1)) + blkPhase x1 x3),
          (fun _ => xs2 (ix2 (0 : Fin 1) (0 : Fin 1)) + blkCoh x1 x4)) := by
  rw [magB, phaseB, cohB, pay7_apply, pay98_apply, pay10_apply]
  rfl

theorem caseC_vals (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec Ideal S1x256x2048 .f32) (x1 : Vec Ideal S1x256x2048 .f32) (x2 : Vec Ideal S1x256x2048 .f32) (x3 : Vec Ideal S1x256x2048 .f32) (x4 : Vec Ideal S1x256x256 .f32) (xs0 : Vec Ideal S1x1 .f32) (xs1 : Vec Ideal S1x1 .f32) (xs2 : Vec Ideal S1x1 .f32) :
    (sout0_C_0 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2, sout0_C_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2, sout0_C_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)
      = ((fun _ => xs0 (ix2 (0 : Fin 1) (0 : Fin 1)) + blkMag x0 x2), (fun _ => xs1 (ix2 (0 : Fin 1) (0 : Fin 1)) + blkPhase x1 x3),
          (fun _ => xs2 (ix2 (0 : Fin 1) (0 : Fin 1)) + blkCoh x1 x4)) := by
  rw [magC, phaseC, cohC, pay7_apply, pay98_apply, pay10_apply]
  rfl

theorem caseC_outs (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec Ideal S1x256x2048 .f32) (x1 : Vec Ideal S1x256x2048 .f32) (x2 : Vec Ideal S1x256x2048 .f32) (x3 : Vec Ideal S1x256x2048 .f32) (x4 : Vec Ideal S1x256x256 .f32) (xs0 : Vec Ideal S1x1 .f32) (xs1 : Vec Ideal S1x1 .f32) (xs2 : Vec Ideal S1x1 .f32) :
    (out0_C_5 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2, out0_C_6 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2, out0_C_7 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2)
      = ((fun _ => Ideal.div (xs0 (ix2 (0 : Fin 1) (0 : Fin 1)) + blkMag x0 x2) nElems),
          (fun _ => Ideal.div (xs1 (ix2 (0 : Fin 1) (0 : Fin 1)) + blkPhase x1 x3) nElems),
          (fun _ => Ideal.div (xs2 (ix2 (0 : Fin 1) (0 : Fin 1)) + blkCoh x1 x4) nPairs)) := by
  rw [magOutC, phaseOutC, cohOutC, pay1_apply, pay2_apply, pay3_apply, pay7_apply, pay98_apply, pay10_apply]
  rfl

/-! ## The running sums, point by point -/

/-- From what the point before left, a later point leaves the next running sums. -/
theorem step (c : Dev nD) (n : ℕ) (t : Fin cfg0.N) (ht : t.val = n + 1) (xs0 xs1 xs2 : Vec Ideal S1x1 .f32)
    (e0 : xs0 = fun _ => running (Tmag m c) n) (e1 : xs1 = fun _ => running (Tphase m c) n)
    (e2 : xs2 = fun _ => running (Tcoh m c) n) :
    ((fun _ => xs0 (ix2 (0 : Fin 1) (0 : Fin 1)) + blkMag (iblk m c 0 t) (iblk m c 2 t)),
      (fun _ => xs1 (ix2 (0 : Fin 1) (0 : Fin 1)) + blkPhase (iblk m c 1 t) (iblk m c 3 t)),
      (fun _ => xs2 (ix2 (0 : Fin 1) (0 : Fin 1)) + blkCoh (iblk m c 1 t) (iblk m c 4 t)))
      = (((fun _ => running (Tmag m c) (n + 1)), (fun _ => running (Tphase m c) (n + 1)), (fun _ => running (Tcoh m c) (n + 1)))
          : Vec Ideal S1x1 .f32 × Vec Ideal S1x1 .f32 × Vec Ideal S1x1 .f32) := by
  subst e0 e1 e2
  rw [magAt m c t, phaseAt m c t, cohAt m c t, ht]
  rfl

/-- The three running sums after point `n`. -/
theorem sums_at (c : Dev nD) : ∀ (n : ℕ) (h : n < cfg0.N),
    (outsAt0 m c n h).2.2.2
      = (((fun _ => running (Tmag m c) n), (fun _ => running (Tphase m c) n), (fun _ => running (Tcoh m c) n))
          : Vec Ideal S1x1 .f32 × Vec Ideal S1x1 .f32 × Vec Ideal S1x1 .f32)
  | 0, h => by
    have h0 : (⟨0, h⟩ : Fin cfg0.N).val % 32 = 0 := rfl
    have h1 : ¬(⟨0, h⟩ : Fin cfg0.N).val % 32 = 31 := (show ¬(0 : ℕ) % 32 = 31 by decide)
    refine (congrArg (fun z => z.2.2.2) (outsAt0_A m c (⟨0, h⟩ : Fin cfg0.N) h0 h1)).trans ?_
    refine (caseA_vals c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) scM0_2 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N))).trans ?_
    rw [magAt m c (⟨0, h⟩ : Fin cfg0.N), phaseAt m c (⟨0, h⟩ : Fin cfg0.N), cohAt m c (⟨0, h⟩ : Fin cfg0.N)]
    rfl
  | n + 1, h => by
    have hlt : n + 1 < 32 := lt_of_lt_of_eq h hN
    have h0 : ¬(⟨n + 1, h⟩ : Fin cfg0.N).val % 32 = 0 := by dsimp only; omega
    have ih := sums_at c n (Nat.lt_of_succ_lt h)
    by_cases h1 : (⟨n + 1, h⟩ : Fin cfg0.N).val % 32 = 31
    · refine (congrArg (fun z => z.2.2.2) (outsAt0_C m c (⟨n + 1, h⟩ : Fin cfg0.N) h0 h1)).trans ?_
      refine (caseC_vals c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans ?_
      exact step m c n (⟨n + 1, h⟩ : Fin cfg0.N) rfl _ _ _ (congrArg (fun z => z.1) ih) (congrArg (fun z => z.2.1) ih) (congrArg (fun z => z.2.2) ih)
    · refine (congrArg (fun z => z.2.2.2) (outsAt0_B m c (⟨n + 1, h⟩ : Fin cfg0.N) h0 h1)).trans ?_
      refine (caseB_vals c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans ?_
      exact step m c n (⟨n + 1, h⟩ : Fin cfg0.N) rfl _ _ _ (congrArg (fun z => z.1) ih) (congrArg (fun z => z.2.1) ih) (congrArg (fun z => z.2.2) ih)

/-! ## The last point's outputs -/

/-- The last grid point. -/
def tLast : Fin cfg0.N := ⟨31, by rw [hN]; decide⟩

theorem sumMag (c : Dev nD) : running (Tmag m c) 31 = ∑ b : Fin 32, magTile (X0 m c) (X2 m c) b := by
  rw [running_last]
  exact Finset.sum_congr rfl fun b _ => dif_pos b.isLt
theorem sumPhase (c : Dev nD) : running (Tphase m c) 31 = ∑ b : Fin 32, phaseTile (X1 m c) (X3 m c) b := by
  rw [running_last]
  exact Finset.sum_congr rfl fun b _ => dif_pos b.isLt
theorem sumCoh (c : Dev nD) : running (Tcoh m c) 31 = ∑ b : Fin 32, cohTile (X1 m c) (X4 m c) b := by
  rw [running_last]
  exact Finset.sum_congr rfl fun b _ => dif_pos b.isLt

/-- The last point divides each full sum by its count. -/
theorem lastDiv (c : Dev nD) (a b d : EReal) (ha : a = running (Tmag m c) 31) (hb : b = running (Tphase m c) 31)
    (hd : d = running (Tcoh m c) 31) :
    (((fun _ => Ideal.div a nElems), (fun _ => Ideal.div b nElems), (fun _ => Ideal.div d nPairs))
        : Vec Ideal S1x1 .f32 × Vec Ideal S1x1 .f32 × Vec Ideal S1x1 .f32)
      = ((fun _ => magLoss (X0 m c) (X2 m c)), (fun _ => phaseLoss (X1 m c) (X3 m c)), (fun _ => cohLoss (X1 m c) (X4 m c))) := by
  subst ha hb hd
  rw [sumMag, sumPhase, sumCoh]
  rfl

/-- What the three outputs' buffers hold after the last point: the three losses. -/
theorem outs_last (c : Dev nD) :
    ((outsAt0 m c tLast.val tLast.isLt).1, (outsAt0 m c tLast.val tLast.isLt).2.1, (outsAt0 m c tLast.val tLast.isLt).2.2.1)
      = (((fun _ => magLoss (X0 m c) (X2 m c)), (fun _ => phaseLoss (X1 m c) (X3 m c)), (fun _ => cohLoss (X1 m c) (X4 m c)))
          : Vec Ideal S1x1 .f32 × Vec Ideal S1x1 .f32 × Vec Ideal S1x1 .f32) := by
  have h0 : ¬(tLast : Fin cfg0.N).val % 32 = 0 := by decide
  have h1 : (tLast : Fin cfg0.N).val % 32 = 31 := rfl
  have ih := sums_at m c 30 (Nat.lt_of_succ_lt tLast.isLt)
  refine (congrArg (fun z => (z.1, z.2.1, z.2.2.1)) (outsAt0_C m c tLast h0 h1)).trans ?_
  refine (caseC_outs c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) scM0_0 (Memref.isWhole_whole _) scM0_1 (Memref.isWhole_whole _) scM0_2 (Memref.isWhole_whole _) (fun hh => h0 ((hcond0_0 tLast).mp hh)) ((hcond0_1 tLast).mpr h1) (iblk m c 0 tLast) (iblk m c 1 tLast) (iblk m c 2 tLast) (iblk m c 3 tLast) (iblk m c 4 tLast) (outsAt0 m c (tLast.val - 1) (Nat.lt_of_le_of_lt (Nat.sub_le _ _) tLast.isLt)).2.2.2.1 (outsAt0 m c (tLast.val - 1) (Nat.lt_of_le_of_lt (Nat.sub_le _ _) tLast.isLt)).2.2.2.2.1 (outsAt0 m c (tLast.val - 1) (Nat.lt_of_le_of_lt (Nat.sub_le _ _) tLast.isLt)).2.2.2.2.2).trans ?_
  have s := step m c 30 tLast rfl _ _ _ (congrArg (fun z => z.1) ih) (congrArg (fun z => z.2.1) ih) (congrArg (fun z => z.2.2) ih)
  have s0 := congrFun (congrArg (fun z => z.1) s) (ix2 (0 : Fin 1) (0 : Fin 1))
  have s1 := congrFun (congrArg (fun z => z.2.1) s) (ix2 (0 : Fin 1) (0 : Fin 1))
  have s2 := congrFun (congrArg (fun z => z.2.2) s) (ix2 (0 : Fin 1) (0 : Fin 1))
  dsimp only at s0 s1 s2
  exact lastDiv m c _ _ _ s0 s1 s2

end Cert.KernelIdeal.Sums

end
-- ==== Proof.KernelRun.lean ====
/-
  The kernel's run on the extended reals: its four results are the specification's total and three losses.

  Each of the three `[1, 1]` result arrays is written back once, at the last grid point, with that point's output —
  the full running sum divided by its count — and that block is the whole array.  The lines after the call reshape
  the three arrays to scalars and combine them with the weights `1`, `½` and `f32(0.3)`.
-/
import proofs.«178619_j74517682586316_2_alg».proof.Proof.KernelSums

noncomputable section

open Idealize.ShloMosaic Idealize.ShloMosaic.TcCoe Idealize.SL.Sem Idealize.ShloMosaic.ValueIdx
open Idealize.ShloMosaic.Pipeline (Dat)
open Idealize.ShloMosaic.RunningSum

namespace Cert.KernelIdeal.Sums

open Cert.KernelIdeal Cert.KernelIdeal.Gen Cert.KernelIdeal.Tile Cert.KernelIdeal.Pieces Cert.LossSpec

variable (m : (ℓ : Loc nD τ sig) → Buf (Elt Ideal) ℓ) (ρ : Dev nD → PrngReg)

/-! ## The result arrays after the region -/

/-- Result array 0: the one write-back, at the last point, writes the loss. -/
theorem flushed5 (c : Dev nD) (t : Fin cfg0.N) (hf : (cfg0.win 5).flush t = true) :
    (dats m 0 c).flushed 5 t = ((cfg0.win 5).blk t).view.read (Elt Ideal) (fun _ => magLoss (X0 m c) (X2 m c)) := by
  have ht : t.val = 31 := by have := (flush0_5 t).mp hf; have := lt_of_lt_of_eq t.isLt hN; omega
  obtain rfl : t = tLast := Fin.ext ht
  show (cfg0.win 5).cut (grid0.coords tLast) ((dats m 0 c).after 5 tLast) = _
  rw [after0_5, show (outsAt0 m c tLast.val tLast.isLt).1 = _ from congrArg (fun z => z.1) (outs_last m c)]
  have hz' : (fun a => win0_5.index tLast a * main_v0_0.ty.shape.size a) = fun _ => 0 :=
    funext fun a => by fin_cases a <;> decide +kernel
  exact (Memref.read_access_unit_zero (Elt Ideal) main_v0_0 hz' (fun a => by rw [congrFun hz' a]; simp) _).symm

/-- So it ends holding the loss: the last point's block is the whole `[1, 1]` array. -/
theorem final5 (c : Dev nD) : (dats m 0 c).arrAt 5 cfg0.N = fun _ => magLoss (X0 m c) (X2 m c) :=
  (dats m 0 c).arrAt_eq_of_cover 5 _ (flushed5 m c) fun i =>
    ⟨tLast, (flush0_5 tLast).mpr rfl, by
      show i ∈ ((View.whole main_v0_0).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat) ∧ (i 0 : Nat) < win0_5.index tLast 0 * win0_5.size 0 + win0_5.xsize (grid0.coords tLast) 0
        rw [show win0_5.index tLast 0 * win0_5.size 0 = 0 from by decide +kernel, show win0_5.xsize (grid0.coords tLast) 0 = 1 from by decide +kernel]; omega
      | ⟨1, _⟩ =>
        show win0_5.index tLast 1 * win0_5.size 1 ≤ (i 1 : Nat) ∧ (i 1 : Nat) < win0_5.index tLast 1 * win0_5.size 1 + win0_5.xsize (grid0.coords tLast) 1
        rw [show win0_5.index tLast 1 * win0_5.size 1 = 0 from by decide +kernel, show win0_5.xsize (grid0.coords tLast) 1 = 1 from by decide +kernel]; omega⟩

/-- The same read where the lines after the call find it. -/
theorem arr5 (c : Dev nD) :
    Pipeline.withArrays (cfgs 0).spec c (V0 m c) (fun w => (dats m 0 c).arrAt w (cfgs 0).N) (Proc.devRef .tc main_v0_0) = fun _ => magLoss (X0 m c) (X2 m c) :=
  (Pipeline.withArrays_arr spec0 launch0.win.arr_inj c _ _ 5).trans (final5 m c)

/-- Result array 1: the one write-back, at the last point, writes the loss. -/
theorem flushed6 (c : Dev nD) (t : Fin cfg0.N) (hf : (cfg0.win 6).flush t = true) :
    (dats m 0 c).flushed 6 t = ((cfg0.win 6).blk t).view.read (Elt Ideal) (fun _ => phaseLoss (X1 m c) (X3 m c)) := by
  have ht : t.val = 31 := by have := (flush0_6 t).mp hf; have := lt_of_lt_of_eq t.isLt hN; omega
  obtain rfl : t = tLast := Fin.ext ht
  show (cfg0.win 6).cut (grid0.coords tLast) ((dats m 0 c).after 6 tLast) = _
  rw [after0_6, show (outsAt0 m c tLast.val tLast.isLt).2.1 = _ from congrArg (fun z => z.2.1) (outs_last m c)]
  have hz' : (fun a => win0_6.index tLast a * main_v0_1.ty.shape.size a) = fun _ => 0 :=
    funext fun a => by fin_cases a <;> decide +kernel
  exact (Memref.read_access_unit_zero (Elt Ideal) main_v0_1 hz' (fun a => by rw [congrFun hz' a]; simp) _).symm

/-- So it ends holding the loss: the last point's block is the whole `[1, 1]` array. -/
theorem final6 (c : Dev nD) : (dats m 0 c).arrAt 6 cfg0.N = fun _ => phaseLoss (X1 m c) (X3 m c) :=
  (dats m 0 c).arrAt_eq_of_cover 6 _ (flushed6 m c) fun i =>
    ⟨tLast, (flush0_6 tLast).mpr rfl, by
      show i ∈ ((View.whole main_v0_1).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index tLast 0 * win0_6.size 0 ≤ (i 0 : Nat) ∧ (i 0 : Nat) < win0_6.index tLast 0 * win0_6.size 0 + win0_6.xsize (grid0.coords tLast) 0
        rw [show win0_6.index tLast 0 * win0_6.size 0 = 0 from by decide +kernel, show win0_6.xsize (grid0.coords tLast) 0 = 1 from by decide +kernel]; omega
      | ⟨1, _⟩ =>
        show win0_6.index tLast 1 * win0_6.size 1 ≤ (i 1 : Nat) ∧ (i 1 : Nat) < win0_6.index tLast 1 * win0_6.size 1 + win0_6.xsize (grid0.coords tLast) 1
        rw [show win0_6.index tLast 1 * win0_6.size 1 = 0 from by decide +kernel, show win0_6.xsize (grid0.coords tLast) 1 = 1 from by decide +kernel]; omega⟩

/-- The same read where the lines after the call find it. -/
theorem arr6 (c : Dev nD) :
    Pipeline.withArrays (cfgs 0).spec c (V0 m c) (fun w => (dats m 0 c).arrAt w (cfgs 0).N) (Proc.devRef .tc main_v0_1) = fun _ => phaseLoss (X1 m c) (X3 m c) :=
  (Pipeline.withArrays_arr spec0 launch0.win.arr_inj c _ _ 6).trans (final6 m c)

/-- Result array 2: the one write-back, at the last point, writes the loss. -/
theorem flushed7 (c : Dev nD) (t : Fin cfg0.N) (hf : (cfg0.win 7).flush t = true) :
    (dats m 0 c).flushed 7 t = ((cfg0.win 7).blk t).view.read (Elt Ideal) (fun _ => cohLoss (X1 m c) (X4 m c)) := by
  have ht : t.val = 31 := by have := (flush0_7 t).mp hf; have := lt_of_lt_of_eq t.isLt hN; omega
  obtain rfl : t = tLast := Fin.ext ht
  show (cfg0.win 7).cut (grid0.coords tLast) ((dats m 0 c).after 7 tLast) = _
  rw [after0_7, show (outsAt0 m c tLast.val tLast.isLt).2.2.1 = _ from congrArg (fun z => z.2.2) (outs_last m c)]
  have hz' : (fun a => win0_7.index tLast a * main_v0_2.ty.shape.size a) = fun _ => 0 :=
    funext fun a => by fin_cases a <;> decide +kernel
  exact (Memref.read_access_unit_zero (Elt Ideal) main_v0_2 hz' (fun a => by rw [congrFun hz' a]; simp) _).symm

/-- So it ends holding the loss: the last point's block is the whole `[1, 1]` array. -/
theorem final7 (c : Dev nD) : (dats m 0 c).arrAt 7 cfg0.N = fun _ => cohLoss (X1 m c) (X4 m c) :=
  (dats m 0 c).arrAt_eq_of_cover 7 _ (flushed7 m c) fun i =>
    ⟨tLast, (flush0_7 tLast).mpr rfl, by
      show i ∈ ((View.whole main_v0_2).slice (win0_7.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_7.index tLast 0 * win0_7.size 0 ≤ (i 0 : Nat) ∧ (i 0 : Nat) < win0_7.index tLast 0 * win0_7.size 0 + win0_7.xsize (grid0.coords tLast) 0
        rw [show win0_7.index tLast 0 * win0_7.size 0 = 0 from by decide +kernel, show win0_7.xsize (grid0.coords tLast) 0 = 1 from by decide +kernel]; omega
      | ⟨1, _⟩ =>
        show win0_7.index tLast 1 * win0_7.size 1 ≤ (i 1 : Nat) ∧ (i 1 : Nat) < win0_7.index tLast 1 * win0_7.size 1 + win0_7.xsize (grid0.coords tLast) 1
        rw [show win0_7.index tLast 1 * win0_7.size 1 = 0 from by decide +kernel, show win0_7.xsize (grid0.coords tLast) 1 = 1 from by decide +kernel]; omega⟩

/-- The same read where the lines after the call find it. -/
theorem arr7 (c : Dev nD) :
    Pipeline.withArrays (cfgs 0).spec c (V0 m c) (fun w => (dats m 0 c).arrAt w (cfgs 0).N) (Proc.devRef .tc main_v0_2) = fun _ => cohLoss (X1 m c) (X4 m c) :=
  (Pipeline.withArrays_arr spec0 launch0.win.arr_inj c _ _ 7).trans (final7 m c)

/-! ## The lines after the call -/

theorem tail1 (c : Dev nD) :
    Pipeline.afterTail₀ cfgs (dats m) 0 (V0 m) [hostOps1] c main_v1 = fun _ => magLoss (X0 m c) (X2 m c) := by
  unfold Pipeline.afterTail₀
  show StableHlo.after hostOps1 _ (Proc.devRef .tc main_v1) = _
  after_results
  rw [arr5 m c]
  rfl

theorem tail2 (c : Dev nD) :
    Pipeline.afterTail₀ cfgs (dats m) 0 (V0 m) [hostOps1] c main_v2 = fun _ => phaseLoss (X1 m c) (X3 m c) := by
  unfold Pipeline.afterTail₀
  show StableHlo.after hostOps1 _ (Proc.devRef .tc main_v2) = _
  after_results
  rw [arr6 m c]
  rfl

theorem tail3 (c : Dev nD) :
    Pipeline.afterTail₀ cfgs (dats m) 0 (V0 m) [hostOps1] c main_v3 = fun _ => cohLoss (X1 m c) (X4 m c) := by
  unfold Pipeline.afterTail₀
  show StableHlo.after hostOps1 _ (Proc.devRef .tc main_v3) = _
  after_results
  rw [arr7 m c]
  rfl

/-- The weighted total of the three scalars. -/
theorem tail8 (c : Dev nD) :
    Pipeline.afterTail₀ cfgs (dats m) 0 (V0 m) [hostOps1] c main_v8
      = fun _ => total (magLoss (X0 m c) (X2 m c)) (phaseLoss (X1 m c) (X3 m c)) (cohLoss (X1 m c) (X4 m c)) := by
  unfold Pipeline.afterTail₀
  show StableHlo.after hostOps1 _ (Proc.devRef .tc main_v8) = _
  after_results
  rw [arr5 m c, arr6 m c, arr7 m c]
  rfl

/-! ## The run -/

/-- Every weakly fair execution of the idealized kernel program ends with the total and the three losses of its
    argument arrays in its four results, and the arguments unchanged. -/
theorem run : θ_run defs (onTc (τ := τ) (main (F := Ideal))) ⟨m, fun _ => 0, ρ⟩ fun r => ∀ c : Dev nD,
      r.2.mem ((c.tc : Thread nD τ).loc main_v8) = (fun _ => total (magLoss (X0 m c) (X2 m c)) (phaseLoss (X1 m c) (X3 m c)) (cohLoss (X1 m c) (X4 m c)))
      ∧ r.2.mem ((c.tc : Thread nD τ).loc main_v1) = (fun _ => magLoss (X0 m c) (X2 m c))
      ∧ r.2.mem ((c.tc : Thread nD τ).loc main_v2) = (fun _ => phaseLoss (X1 m c) (X3 m c))
      ∧ r.2.mem ((c.tc : Thread nD τ).loc main_v3) = (fun _ => cohLoss (X1 m c) (X4 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 rfl (by decide))).trans (tail8 m c),
      ((h c).2 main_v1 (Pipeline.mem_restRefs_of main_v1 rfl (by decide))).trans (tail1 m c),
      ((h c).2 main_v2 (Pipeline.mem_restRefs_of main_v2 rfl (by decide))).trans (tail2 m c),
      ((h c).2 main_v3 (Pipeline.mem_restRefs_of main_v3 rfl (by decide))).trans (tail3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Sums

end
-- ==== Proof.RefValue.lean ====
/-
  The reference computes the specification's losses.

  Each of its three means is a sum over EVERY index of a rank-3 array from zero, divided by the number of entries; read
  as a triple sum over the coordinates (batch outermost) it is the specification's sum of per-batch sums.  Its four
  batched products contract the last axis of rows `i` and `j` of one batch: the operand indices are `(b, i, k)` and
  `(b, j, k)`.  Host cosine, sine, square root and quotient are the kernel's functions on the extended reals.
-/
import proofs.«178619_j74517682586316_2_alg».proof.Proof.Gen.ReferenceIdeal.Read
import proofs.«178619_j74517682586316_2_alg».proof.Proof.LossSpec

noncomputable section

namespace Cert.ReferenceIdeal.RefValue

open Cert.ReferenceIdeal Cert.ReferenceIdeal.Gen Cert.ReferenceIdeal.Read
open Idealize.ShloMosaic Idealize.ShloMosaic.ValueIdx Idealize.ShloMosaic.Idx3 Cert.LossSpec

abbrev A3 : Type := (⟨S32x256x2048, .f32⟩ : BufTy).Contents (Elt Ideal)
abbrev A4 : Type := (⟨S32x256x256, .f32⟩ : BufTy).Contents (Elt Ideal)

/-! ## The batched products' operand indices, by coordinates -/

theorem lidx_v12 (b : Fin 32) (i j : Fin 256) (k : Fin 2048) : lidx_main_v12 (ix3 b i j) k = ix3 b i k :=
  funext fun a => Fin.ext (by match a with | ⟨0, _⟩ => rfl | ⟨1, _⟩ => rfl | ⟨2, _⟩ => rfl)
theorem ridx_v12 (b : Fin 32) (i j : Fin 256) (k : Fin 2048) : ridx_main_v12 (ix3 b i j) k = ix3 b j k :=
  funext fun a => Fin.ext (by match a with | ⟨0, _⟩ => rfl | ⟨1, _⟩ => rfl | ⟨2, _⟩ => rfl)
theorem lidx_v13 (b : Fin 32) (i j : Fin 256) (k : Fin 2048) : lidx_main_v13 (ix3 b i j) k = ix3 b i k :=
  funext fun a => Fin.ext (by match a with | ⟨0, _⟩ => rfl | ⟨1, _⟩ => rfl | ⟨2, _⟩ => rfl)
theorem ridx_v13 (b : Fin 32) (i j : Fin 256) (k : Fin 2048) : ridx_main_v13 (ix3 b i j) k = ix3 b j k :=
  funext fun a => Fin.ext (by match a with | ⟨0, _⟩ => rfl | ⟨1, _⟩ => rfl | ⟨2, _⟩ => rfl)
theorem lidx_v17 (b : Fin 32) (i j : Fin 256) (k : Fin 2048) : lidx_main_v17 (ix3 b i j) k = ix3 b i k :=
  funext fun a => Fin.ext (by match a with | ⟨0, _⟩ => rfl | ⟨1, _⟩ => rfl | ⟨2, _⟩ => rfl)
theorem ridx_v17 (b : Fin 32) (i j : Fin 256) (k : Fin 2048) : ridx_main_v17 (ix3 b i j) k = ix3 b j k :=
  funext fun a => Fin.ext (by match a with | ⟨0, _⟩ => rfl | ⟨1, _⟩ => rfl | ⟨2, _⟩ => rfl)
theorem lidx_v18 (b : Fin 32) (i j : Fin 256) (k : Fin 2048) : lidx_main_v18 (ix3 b i j) k = ix3 b i k :=
  funext fun a => Fin.ext (by match a with | ⟨0, _⟩ => rfl | ⟨1, _⟩ => rfl | ⟨2, _⟩ => rfl)
theorem ridx_v18 (b : Fin 32) (i j : Fin 256) (k : Fin 2048) : ridx_main_v18 (ix3 b i j) k = ix3 b j k :=
  funext fun a => Fin.ext (by match a with | ⟨0, _⟩ => rfl | ⟨1, _⟩ => rfl | ⟨2, _⟩ => rfl)

/-! ## The three means -/

/-- The mean of the squared differences. -/
theorem mag_eq (x0 x2 : A3) : val_main_v3 (F := Ideal) x0 x2 = fun _ => magLoss x0 x2 := by
  funext i
  rw [val_main_v3_apply, val_main_v2_apply, sum_idx3]
  simp only [val_main_cst_0_apply, val_main_cst_apply, val_main_v1_apply, val_main_v0_apply, Ideal.hostDivf_def,
    Ideal.ofBits_def, Ideal.mulf_def, Ideal.subf_def, Ideal.ofBits_zero_f32, zero_add, magLoss, magTile, sqDiff]

/-- The mean of `1 - cos` of the phase differences. -/
theorem phase_eq (x1 x3 : A3) : val_main_v9 (F := Ideal) x1 x3 = fun _ => phaseLoss x1 x3 := by
  funext i
  rw [val_main_v9_apply, val_main_v8_apply, sum_idx3]
  simp only [val_main_cst_3_apply, val_main_cst_2_apply, val_main_v7_apply, val_main_v6_apply, val_main_cst_1_apply,
    val_main_v5_apply, val_main_v4_apply, Ideal.hostDivf_def, Ideal.ofBits_def, Ideal.subf_def, Ideal.hostUnary_cos_def,
    Ideal.ofBits_zero_f32, zero_add, phaseLoss, phaseTile, cosGap]

/-- The mean of the squared coherence errors. -/
theorem coh_eq (x1 : A3) (x4 : A4) : val_main_v31 (F := Ideal) x1 x4 = fun _ => cohLoss x1 x4 := by
  funext i
  rw [val_main_v31_apply, val_main_v30_apply, sum_idx3]
  simp only [val_main_cst_8_apply, val_main_cst_7_apply, val_main_v29_apply, val_main_v28_apply, val_main_v27_apply,
    val_main_v26_apply, val_main_v25_apply, val_main_cst_6_apply, val_main_v24_apply, val_main_v23_apply,
    val_main_v22_apply, val_main_v21_apply, val_main_v20_apply, val_main_cst_5_apply, val_main_v19_apply,
    val_main_v18_apply, val_main_v17_apply, val_main_v16_apply, val_main_v15_apply, val_main_cst_4_apply,
    val_main_v14_apply, val_main_v13_apply, val_main_v12_apply, val_main_v11_apply, val_main_v10_apply,
    lidx_v12, ridx_v12, lidx_v13, ridx_v13, lidx_v17, ridx_v17, lidx_v18, ridx_v18,
    Ideal.hostDivf_def, Ideal.ofBits_def, Ideal.mulf_def, Ideal.subf_def, Ideal.addf_def, Ideal.hostUnary_cos_def,
    Ideal.hostUnary_sin_def, Ideal.hostUnary_sqrt_def, Ideal.ofBits_zero_f32, zero_add, cohLoss, cohTile, sqDiff, pci]

/-- The weighted total. -/
theorem total_eq (x0 x1 x2 x3 : A3) (x4 : A4) :
    val_main_v36 (F := Ideal) x0 x1 x2 x3 x4 = fun _ => total (magLoss x0 x2) (phaseLoss x1 x3) (cohLoss x1 x4) := by
  funext i
  rw [val_main_v36_apply, val_main_v34_apply, val_main_v35_apply, val_main_v32_apply, val_main_v33_apply,
    mag_eq, phase_eq, coh_eq]
  simp only [val_main_cst_9_apply, val_main_cst_10_apply, val_main_cst_11_apply, Ideal.ofBits_def, Ideal.mulf_def,
    Ideal.addf_def, total]

end Cert.ReferenceIdeal.RefValue

end
-- ==== Proof.lean ====
/-
  The certificate of the fused loss kernel against its reference.

  The kernel walks the 32 batches one grid point at a time, adds each batch's three tile sums — squared magnitude
  differences, `1 - cos` of phase differences, squared coherence errors — into three running sums, and at the last
  point divides each by its count; the lines after the call form `1 · mag + ½ · phase + f32(0.3) · coh`.  The reference
  takes each mean as one sum over every entry of a rank-3 array.  On the extended reals the two agree: a sum over a
  rank-3 index set is the triple sum over its coordinates, a running sum from zero is the sum of its terms, the
  fourth product the reference computes (cos·sin) is the kernel's sin·cos product transposed, and a change of float
  format is the identity.  Only commutativity and associativity of addition and commutativity of multiplication are
  used, so the finiteness of the inputs is never opened.

  The frames of the two kernel programs are the generated ones; the reference's frame is its generated run with the
  results dropped.  The idealization rewrote nothing, so `preserves` is `True`.
-/
import proofs.«178619_j74517682586316_2_alg».proof.Defs
import proofs.«178619_j74517682586316_2_alg».proof.Proof.Gen.Kernel
import proofs.«178619_j74517682586316_2_alg».proof.Proof.Gen.Kernel.Skeleton
import proofs.«178619_j74517682586316_2_alg».proof.Proof.Gen.Kernel.Launch
import proofs.«178619_j74517682586316_2_alg».proof.Proof.Gen.Kernel.Points
import proofs.«178619_j74517682586316_2_alg».proof.Proof.Gen.Kernel.Frame
import proofs.«178619_j74517682586316_2_alg».proof.Proof.Gen.KernelIdeal
import proofs.«178619_j74517682586316_2_alg».proof.Proof.Gen.KernelIdeal.Skeleton
import proofs.«178619_j74517682586316_2_alg».proof.Proof.Gen.KernelIdeal.Launch
import proofs.«178619_j74517682586316_2_alg».proof.Proof.Gen.KernelIdeal.Points
import proofs.«178619_j74517682586316_2_alg».proof.Proof.Gen.KernelIdeal.Frame
import proofs.«178619_j74517682586316_2_alg».proof.Proof.Gen.ReferenceIdeal
import proofs.«178619_j74517682586316_2_alg».proof.Proof.Gen.ReferenceIdeal.Run
import proofs.«178619_j74517682586316_2_alg».proof.Proof.Gen.ReferenceIdeal.Read
import proofs.«178619_j74517682586316_2_alg».proof.Proof.Gen.Pre_finite_inputs
import proofs.«178619_j74517682586316_2_alg».proof.Proof.KernelRun
import proofs.«178619_j74517682586316_2_alg».proof.Proof.RefValue
import Idealize.ShloMosaic.Adequacy
import Idealize.ShloMosaic.Init

noncomputable section

namespace Cert.Proof

open Idealize.ShloMosaic Idealize.SL.Sem Cert.LossSpec

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.Value.run (F := Ideal) m ρ)

/-- Both programs end with the total and the three losses of the same argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, Cert.KernelIdeal.Sums.run m ρ, ?_⟩
  refine (θ_run Cert.ReferenceIdeal.defs _ _).mono (fun _ h c => ⟨?_, ?_, ?_, ?_, (h c).2.2.2.2⟩)
    (Cert.ReferenceIdeal.Value.run (F := Ideal) m' ρ')
  · refine ((h c).1).trans ((Cert.ReferenceIdeal.Read.val_main_v36_eq m' c).trans
      ((Cert.ReferenceIdeal.RefValue.total_eq _ _ _ _ _).trans ?_))
    rw [(hagree c).1, (hagree c).2.1, (hagree c).2.2.1, (hagree c).2.2.2.1, (hagree c).2.2.2.2]
    rfl
  · refine ((h c).2.1).trans ((Cert.ReferenceIdeal.Read.val_main_v3_eq _ _).trans
      ((Cert.ReferenceIdeal.RefValue.mag_eq _ _).trans ?_))
    rw [(hagree c).1, (hagree c).2.2.1]
    rfl
  · refine ((h c).2.2.1).trans ((Cert.ReferenceIdeal.Read.val_main_v9_eq _ _).trans
      ((Cert.ReferenceIdeal.RefValue.phase_eq _ _).trans ?_))
    rw [(hagree c).2.1, (hagree c).2.2.2.1]
    rfl
  · refine ((h c).2.2.2.1).trans ((Cert.ReferenceIdeal.Read.val_main_v31_eq m' c).trans
      ((Cert.ReferenceIdeal.RefValue.coh_eq _ _).trans ?_))
    rw [(hagree c).2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
